-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v62)) (v2 : (c : Dev Cert.KernelIdeal.nD) → Buf (Elt Ideal) ((c.tc : Thread Cert.KernelIdeal.nD Cert.KernelIdeal.τ).loc Cert.KernelIdeal.main_cst_20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_cst_20) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_cst_31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x80000 : Shape := ⟨3, ![16, 16, 80000]⟩
abbrev S16x8x80000 : Shape := ⟨3, ![16, 8, 80000]⟩
abbrev S_ : Shape := ⟨0, ![]⟩

class Facts : Prop where
  bcast_S_S16x16x80000 : S_.BroadcastsInDim S16x16x80000 (![] : Fin 0 → Fin S16x16x80000.rank)
  reducesTo_S16x16x80000_S_d0_1_2 : S16x16x80000.ReducesTo [0, 1, 2] S_
  h_S_ : 0 < S_.numel

variable [Facts]

def fn {F : FTy → Type} [FloatOps F] (main_arg0 : FVec F S16x16x80000 .f32) (main_arg1 : IVec S16x8x80000 32) : IVec S_ 1 :=
  let main_v0 : FVec F S16x16x80000 .f32 := Host.absf main_arg0
  let main_cst : FVec F S_ .f32 := constant S_ .f32 0x7F800000#32
  let main_v1 : FVec F S16x16x80000 .f32 := broadcastInDim S16x16x80000 ![] bcast_S_S16x16x80000 main_cst
  let main_v2 : IVec S16x16x80000 1 := cmpf .olt main_v0 main_v1
  let main_c : IVec S_ 1 := constantI S_ 1 1#1
  let main_v3 : IVec S_ 1 := (fun x v => Host.reduce IntOp.andi x v reducesTo_S16x16x80000_S_d0_1_2 h_S_) main_v2 main_c
  main_v3
-- ==== Kernel.lean ====
abbrev S16x16x80000 : Shape := ⟨3, ![16, 16, 80000]⟩
abbrev S16x8x80000 : Shape := ⟨3, ![16, 8, 80000]⟩
abbrev S16x8x16 : Shape := ⟨3, ![16, 8, 16]⟩
abbrev S16x8x1 : Shape := ⟨3, ![16, 8, 1]⟩
abbrev S1x16x80000 : Shape := ⟨3, ![1, 16, 80000]⟩
abbrev S1x8x80000 : Shape := ⟨3, ![1, 8, 80000]⟩
abbrev S1x8x16 : Shape := ⟨3, ![1, 8, 16]⟩
abbrev S1x8x1 : Shape := ⟨3, ![1, 8, 1]⟩
abbrev S16x80000 : Shape := ⟨2, ![16, 80000]⟩
abbrev S8x80000 : Shape := ⟨2, ![8, 80000]⟩
abbrev S8x16 : Shape := ⟨2, ![8, 16]⟩
abbrev S8 : Shape := ⟨1, ![8]⟩
abbrev S8x1 : Shape := ⟨2, ![8, 1]⟩
abbrev S1x16x16000 : Shape := ⟨3, ![1, 16, 16000]⟩
abbrev S16x16000 : Shape := ⟨2, ![16, 16000]⟩
abbrev S1x8x16000 : Shape := ⟨3, ![1, 8, 16000]⟩
abbrev S8x16000 : Shape := ⟨2, ![8, 16000]⟩
abbrev S16000 : Shape := ⟨1, ![16000]⟩
abbrev S1x16000 : Shape := ⟨2, ![1, 16000]⟩
abbrev S16x8 : Shape := ⟨2, ![16, 8]⟩
abbrev S_ : Shape := ⟨0, ![]⟩
abbrev S16x8x1x16 : Shape := ⟨4, ![16, 8, 1, 16]⟩
abbrev S16x1x8x16 : Shape := ⟨4, ![16, 1, 8, 16]⟩
abbrev S16x8x8x16 : Shape := ⟨4, ![16, 8, 8, 16]⟩
abbrev S16x8x8 : Shape := ⟨3, ![16, 8, 8]⟩
abbrev S8x8 : Shape := ⟨2, ![8, 8]⟩
abbrev S1x8x8 : Shape := ⟨3, ![1, 8, 8]⟩
abbrev S16x1x8 : Shape := ⟨3, ![16, 1, 8]⟩
abbrev S16 : Shape := ⟨1, ![16]⟩

abbrev nBuf : Space → Nat
  | .hbm => 100
  | .vmem => 10
  | .smem => 0
  | _ => 0

abbrev bufTy : (tb : Table) → Fin (tcTables nBuf tb) → BufTy
  | .hbm, ⟨0, _⟩ => ⟨S16x16x80000, .f32⟩
  | .hbm, ⟨1, _⟩ => ⟨S16x8x80000, .i32⟩
  | .hbm, ⟨2, _⟩ => ⟨S16x8x16, .f32⟩
  | .hbm, ⟨3, _⟩ => ⟨S16x8x1, .f32⟩
  | .hbm, ⟨4, _⟩ => ⟨S16x8x1, .f32⟩
  | .hbm, ⟨5, _⟩ => ⟨S16x8, .f32⟩
  | .hbm, ⟨6, _⟩ => ⟨S16x8, .f32⟩
  | .hbm, ⟨7, _⟩ => ⟨S_, .f32⟩
  | .hbm, ⟨8, _⟩ => ⟨S16x8, .f32⟩
  | .hbm, ⟨9, _⟩ => ⟨S16x8, .i1⟩
  | .hbm, ⟨10, _⟩ => ⟨S_, .f32⟩
  | .hbm, ⟨11, _⟩ => ⟨S16x8, .f32⟩
  | .hbm, ⟨12, _⟩ => ⟨S16x8, .f32⟩
  | .hbm, ⟨13, _⟩ => ⟨S16x8, .f32⟩
  | .hbm, ⟨14, _⟩ => ⟨S_, .f32⟩
  | .hbm, ⟨15, _⟩ => ⟨S_, .f32⟩
  | .hbm, ⟨16, _⟩ => ⟨S16x8, .f32⟩
  | .hbm, ⟨17, _⟩ => ⟨S16x8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16x8x1x16, .f32⟩
  | .hbm, ⟨25, _⟩ => ⟨S16x1x8x16, .f32⟩
  | .hbm, ⟨26, _⟩ => ⟨S16x8x8x16, .f32⟩
  | .hbm, ⟨27, _⟩ => ⟨S16x8x8x16, .f32⟩
  | .hbm, ⟨28, _⟩ => ⟨S16x8x8x16, .f32⟩
  | .hbm, ⟨29, _⟩ => ⟨S16x8x8x16, .f32⟩
  | .hbm, ⟨30, _⟩ => ⟨S_, .f32⟩
  | .hbm, ⟨31, _⟩ => ⟨S16x8x8, .f32⟩
  | .hbm, ⟨32, _⟩ => ⟨S_, .f32⟩
  | .hbm, ⟨33, _⟩ => ⟨S16x8x8, .f32⟩
  | .hbm, ⟨34, _⟩ => ⟨S16x8x8, .i1⟩
  | .hbm, ⟨35, _⟩ => ⟨S_, .f32⟩
  | .hbm, ⟨36, _⟩ => ⟨S_, .f32⟩
  | .hbm, ⟨37, _⟩ => ⟨S16x8x8, .f32⟩
  | .hbm, ⟨38, _⟩ => ⟨S16x8x8, .f32⟩
  | .hbm, ⟨39, _⟩ => ⟨S16x8x8, .f32⟩
  | .hbm, ⟨40, _⟩ => ⟨S_, .f32⟩
  | .hbm, ⟨41, _⟩ => ⟨S_, .f32⟩
  | .hbm, ⟨42, _⟩ => ⟨S16x8x8, .f32⟩
  | .hbm, ⟨43, _⟩ => ⟨S16x8x8, .f32⟩
  | .hbm, ⟨44, _⟩ => ⟨S8x8, .i32⟩
  | .hbm, ⟨45, _⟩ => ⟨S8x8, .i32⟩
  | .hbm, ⟨46, _⟩ => ⟨S_, .i32⟩
  | .hbm, ⟨47, _⟩ => ⟨S8x8, .i32⟩
  | .hbm, ⟨48, _⟩ => ⟨S8x8, .i32⟩
  | .hbm, ⟨49, _⟩ => ⟨S8x8, .i1⟩
  | .hbm, ⟨50, _⟩ => ⟨S8x8, .f32⟩
  | .hbm, ⟨51, _⟩ => ⟨S1x8x8, .f32⟩
  | .hbm, ⟨52, _⟩ => ⟨S_, .f32⟩
  | .hbm, ⟨53, _⟩ => ⟨S1x8x8, .f32⟩
  | .hbm, ⟨54, _⟩ => ⟨S1x8x8, .f32⟩
  | .hbm, ⟨55, _⟩ => ⟨S16x8x8, .f32⟩
  | .hbm, ⟨56, _⟩ => ⟨S16x8x8, .f32⟩
  | .hbm, ⟨57, _⟩ => ⟨S16x8x1, .i1⟩
  | .hbm, ⟨58, _⟩ => ⟨S16x1x8, .i1⟩
  | .hbm, ⟨59, _⟩ => ⟨S16x8x8, .i1⟩
  | .hbm, ⟨60, _⟩ => ⟨S16x8x8, .i1⟩
  | .hbm, ⟨61, _⟩ => ⟨S16x8x8, .i1⟩
  | .hbm, ⟨62, _⟩ => ⟨S16x8x8, .f32⟩
  | .hbm, ⟨63, _⟩ => ⟨S_, .f32⟩
  | .hbm, ⟨64, _⟩ => ⟨S16x8x8, .f32⟩
  | .hbm, ⟨65, _⟩ => ⟨S16x8x8, .f32⟩
  | .hbm, ⟨66, _⟩ => ⟨S_, .f32⟩
  | .hbm, ⟨67, _⟩ => ⟨S16x8x8, .f32⟩
  | .hbm, ⟨68, _⟩ => ⟨S16x8x8, .f32⟩
  | .hbm, ⟨69, _⟩ => ⟨S16x8x8, .f32⟩
  | .hbm, ⟨70, _⟩ => ⟨S16x8x8, .f32⟩
  | .hbm, ⟨71, _⟩ => ⟨S16x8, .i32⟩
  | .hbm, ⟨72, _⟩ => ⟨S_, .i32⟩
  | .hbm, ⟨73, _⟩ => ⟨S16, .i32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S16, .f32⟩
  | .hbm, ⟨81, _⟩ => ⟨S16, .i1⟩
  | .hbm, ⟨82, _⟩ => ⟨S_, .f32⟩
  | .hbm, ⟨83, _⟩ => ⟨S16, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S16, .f32⟩
  | .hbm, ⟨88, _⟩ => ⟨S_, .f32⟩
  | .hbm, ⟨89, _⟩ => ⟨S16, .f32⟩
  | .hbm, ⟨90, _⟩ => ⟨S16, .f32⟩
  | .hbm, ⟨91, _⟩ => ⟨S_, .f32⟩
  | .hbm, ⟨92, _⟩ => ⟨S_, .f32⟩
  | .hbm, ⟨93, _⟩ => ⟨S16, .f32⟩
  | .hbm, ⟨94, _⟩ => ⟨S16, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .local _ .vmem, ⟨0, _⟩ => ⟨S1x16x80000, .f32⟩
  | .local _ .vmem, ⟨1, _⟩ => ⟨S1x16x80000, .f32⟩
  | .local _ .vmem, ⟨2, _⟩ => ⟨S1x8x80000, .i32⟩
  | .local _ .vmem, ⟨3, _⟩ => ⟨S1x8x80000, .i32⟩
  | .local _ .vmem, ⟨4, _⟩ => ⟨S1x8x16, .f32⟩
  | .local _ .vmem, ⟨5, _⟩ => ⟨S1x8x16, .f32⟩
  | .local _ .vmem, ⟨6, _⟩ => ⟨S1x8x1, .f32⟩
  | .local _ .vmem, ⟨7, _⟩ => ⟨S1x8x1, .f32⟩
  | .local _ .vmem, ⟨8, _⟩ => ⟨S1x8x1, .f32⟩
  | .local _ .vmem, ⟨9, _⟩ => ⟨S1x8x1, .f32⟩
  | _, _ => ⟨S16x16x80000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_call2_v0 : Ref sig .tc := ⟨.hbm, 41, rfl⟩
abbrev main_call2_v1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_call3_cst : Ref sig .tc := ⟨.hbm, 66, rfl⟩
abbrev main_call3_v0 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_13 : Ref sig .tc := ⟨.hbm, 79, rfl⟩
abbrev main_v52 : Ref sig .tc := ⟨.hbm, 80, rfl⟩
abbrev main_v53 : Ref sig .tc := ⟨.hbm, 81, rfl⟩
abbrev main_cst_14 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_16 : Ref sig .tc := ⟨.hbm, 88, rfl⟩
abbrev main_v58 : Ref sig .tc := ⟨.hbm, 89, rfl⟩
abbrev main_v59 : Ref sig .tc := ⟨.hbm, 90, rfl⟩
abbrev main_cst_17 : Ref sig .tc := ⟨.hbm, 91, rfl⟩
abbrev main_call4_v0 : Ref sig .tc := ⟨.hbm, 92, rfl⟩
abbrev main_call4_v1 : Ref sig .tc := ⟨.hbm, 93, rfl⟩
abbrev main_v60 : Ref sig .tc := ⟨.hbm, 94, rfl⟩
abbrev main_cst_18 : Ref sig .tc := ⟨.hbm, 95, rfl⟩
abbrev main_v61 : Ref sig .tc := ⟨.hbm, 96, rfl⟩
abbrev main_cst_19 : Ref sig .tc := ⟨.hbm, 97, rfl⟩
abbrev main_v62 : Ref sig .tc := ⟨.hbm, 98, rfl⟩
abbrev main_cst_20 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_15 : BitVec 32 := 0#32
  let c5_i32 : BitVec 32 := 5#32
  let v28 : BitVec 32 := Scalar.addi c0_i32_15 c5_i32
  let c1_i32 : BitVec 32 := 1#32
  ⟨c0_i32_15, v28, c1_i32⟩
def k0_mult1 (k0_t1 : Fin k0_t1_loop.trips) : BitVec 32 :=
  let c0_i32_15 : BitVec 32 := 0#32
  let c1_i32 : BitVec 32 := 1#32
  let arg6 : BitVec 32 := Scf.iv c0_i32_15 c1_i32 k0_t1
  let c16000_i32 : BitVec 32 := 16000#32
  let v33 : BitVec 32 := Scalar.muli arg6 c16000_i32
  v33
def k0_off1 (k0_t1 : Fin k0_t1_loop.trips) : Fin 3 → Nat :=
  let c0_20 : Index := 0#32
  let c0_21 : Index := 0#32
  let c0_i32_15 : BitVec 32 := 0#32
  let c1_i32 : BitVec 32 := 1#32
  let arg6 : BitVec 32 := Scf.iv c0_i32_15 c1_i32 k0_t1
  let c16000_i32 : BitVec 32 := 16000#32
  let v33 : BitVec 32 := Scalar.muli arg6 c16000_i32
  let v34 : BitVec 32 := v33
  let v35 : Index := Scalar.indexCast v34
  ![0, 0, v35.toNat]
def k0_off2 (k0_t1 : Fin k0_t1_loop.trips) : Fin 3 → Nat :=
  let c0_22 : Index := 0#32
  let c0_23 : Index := 0#32
  let c0_i32_15 : BitVec 32 := 0#32
  let c1_i32 : BitVec 32 := 1#32
  let arg6 : BitVec 32 := Scf.iv c0_i32_15 c1_i32 k0_t1
  let c16000_i32 : BitVec 32 := 16000#32
  let v33 : BitVec 32 := Scalar.muli arg6 c16000_i32
  let v34 : BitVec 32 := v33
  let v38 : Index := Scalar.indexCast v34
  ![0, 0, v38.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x80000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x16x80000_S1x16x80000_0_0_0 : ∀ a, (![0, 0, 0] : Fin 3 → Nat) a + S1x16x80000.size a ≤ S1x16x80000.size a
  h_S1x16x80000 : 0 < S1x16x80000.numel
  shapeCasts_S1x16x80000_S16x80000 : S1x16x80000.ShapeCasts S16x80000
  inb_S1x8x80000_S1x8x80000_0_0_0 : ∀ a, (![0, 0, 0] : Fin 3 → Nat) a + S1x8x80000.size a ≤ S1x8x80000.size a
  h_S1x8x80000 : 0 < S1x8x80000.numel
  shapeCasts_S1x8x80000_S8x80000 : S1x8x80000.ShapeCasts S8x80000
  natLt_1_32 : 1 < 32
  bitsLt_bf16_f32 : FTy.bits .bf16 < FTy.bits .f32
  reduces_S8x80000_S8 : S8x80000.Reduces [1] S8
  shapeCasts_S8_S8x1 : S8.ShapeCasts S8x1
  broadcasts_S8x1_S8x16 : S8x1.Broadcasts S8x16
  inb_S1x8x16_S1x8x16_0_0_0 : ∀ a, (![0, 0, 0] : Fin 3 → Nat) a + S1x8x16.size a ≤ S1x8x16.size a
  h_S1x8x16 : 0 < S1x8x16.numel
  shapeCasts_S1x8x16_S8x16 : S1x8x16.ShapeCasts S8x16
  shapeCasts_S8x16_S1x8x16 : S8x16.ShapeCasts S1x8x16
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  shapeCasts_S8x1_S1x8x1 : S8x1.ShapeCasts S1x8x1
  reduces_S8x16_S8 : S8x16.Reduces [1] S8
  h_S1x16x16000 : 0 < S1x16x16000.numel
  shapeCasts_S1x16x16000_S16x16000 : S1x16x16000.ShapeCasts S16x16000
  h_S1x8x16000 : 0 < S1x8x16000.numel
  shapeCasts_S1x8x16000_S8x16000 : S1x8x16000.ShapeCasts S8x16000
  reduces_S16x16000_S16000 : S16x16000.Reduces [0] S16000
  shapeCasts_S16000_S1x16000 : S16000.ShapeCasts S1x16000
  broadcasts_S1x16000_S8x16000 : S1x16000.Broadcasts S8x16000
  broadcasts_S8x1_S8x16000 : S8x1.Broadcasts S8x16000
  reduces_S8x16000_S8 : S8x16000.Reduces [1] S8
  shapeCasts_S16x8x1_S16x8 : S16x8x1.ShapeCasts S16x8
  bcast_S_S16x8 : S_.BroadcastsInDim S16x8 (![] : Fin 0 → Fin S16x8.rank)
  reducesTo_S16x8_S_d0_1 : S16x8.ReducesTo [0, 1] S_
  h_S_ : 0 < S_.numel
  bcast_S16x8x16_S16x8x1x16_0_1_3 : S16x8x16.BroadcastsInDim S16x8x1x16 (![0, 1, 3] : Fin 3 → Fin S16x8x1x16.rank)
  bcast_S16x8x16_S16x1x8x16_0_2_3 : S16x8x16.BroadcastsInDim S16x1x8x16 (![0, 2, 3] : Fin 3 → Fin S16x1x8x16.rank)
  bcast_S16x8x1x16_S16x8x8x16_0_1_2_3 : S16x8x1x16.BroadcastsInDim S16x8x8x16 (![0, 1, 2, 3] : Fin 4 → Fin S16x8x8x16.rank)
  bcast_S16x1x8x16_S16x8x8x16_0_1_2_3 : S16x1x8x16.BroadcastsInDim S16x8x8x16 (![0, 1, 2, 3] : Fin 4 → Fin S16x8x8x16.rank)
  reducesTo_S16x8x8x16_S16x8x8_d3 : S16x8x8x16.ReducesTo [3] S16x8x8
  bcast_S_S16x8x8 : S_.BroadcastsInDim S16x8x8 (![] : Fin 0 → Fin S16x8x8.rank)
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S_S1x8x8 : S_.BroadcastsInDim S1x8x8 (![] : Fin 0 → Fin S1x8x8.rank)
  bcast_S1x8x8_S16x8x8_0_1_2 : S1x8x8.BroadcastsInDim S16x8x8 (![0, 1, 2] : Fin 3 → Fin S16x8x8.rank)
  bcast_S16x8_S16x8x1_0_1 : S16x8.BroadcastsInDim S16x8x1 (![0, 1] : Fin 2 → Fin S16x8x1.rank)
  bcast_S16x8_S16x1x8_0_2 : S16x8.BroadcastsInDim S16x1x8 (![0, 2] : Fin 2 → Fin S16x1x8.rank)
  bcast_S16x8x1_S16x8x8_0_1_2 : S16x8x1.BroadcastsInDim S16x8x8 (![0, 1, 2] : Fin 3 → Fin S16x8x8.rank)
  bcast_S16x1x8_S16x8x8_0_1_2 : S16x1x8.BroadcastsInDim S16x8x8 (![0, 1, 2] : Fin 3 → Fin S16x8x8.rank)
  reducesTo_S16x8_S16_d1 : S16x8.ReducesTo [1] S16
  bcast_S_S16 : S_.BroadcastsInDim S16 (![] : Fin 0 → Fin S16.rank)
  reducesTo_S16x8x8_S16_d1_2 : S16x8x8.ReducesTo [1, 2] S16
  reducesTo_S16_S_d0 : S16.ReducesTo [0] S_
  dot_S8x80000_S16x80000_S8x16_1_1_0_0_n_n_wf : DotDims.WF S8x80000 S16x80000 S8x16 [1] [1] [0] [0] [] []
  dot_S8x16_S16x16000_S8x16000_1_0_0_1_n_n_wf : DotDims.WF S8x16 S16x16000 S8x16000 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x16x16000.size a ≤ S1x16x80000.size a
  k0_off2_inb : ∀ k0_t1 : Fin k0_t1_loop.trips, ∀ a, (k0_off2 k0_t1) a + S1x8x16000.size a ≤ S1x8x80000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x80000.size a ≤ S16x16x80000.size a
  hwx0_0 : ∀ i : grid0.Coords, EltTy.bits .f32 = 32 ∨ (Rect.block (s := S16x16x80000) S1x16x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x80000.size a ≤ S16x8x80000.size a
  hwx0_1 : ∀ i : grid0.Coords, EltTy.bits .i32 = 32 ∨ (Rect.block (s := S16x8x80000) S1x8x80000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x16.size a ≤ S16x8x16.size a
  hwx0_2 : ∀ i : grid0.Coords, EltTy.bits .f32 = 32 ∨ (Rect.block (s := S16x8x16) S1x8x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1.size a ≤ S16x8x1.size a
  hwx0_3 : ∀ i : grid0.Coords, EltTy.bits .f32 = 32 ∨ (Rect.block (s := S16x8x1) S1x8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x1.size a ≤ S16x8x1.size a
  hwx0_4 : ∀ i : grid0.Coords, EltTy.bits .f32 = 32 ∨ (Rect.block (s := S16x8x1) S1x8x1.size (cc0_transform_4 i) (hinb0_4 i)).WholeWords (EltTy.packing .f32)

variable [Facts₀]

def dot_S8x80000_S16x80000_S8x16_1_1_0_0_n_n : DotDims S8x80000 S16x80000 S8x16 where
  lhsContracting := [1]
  rhsContracting := [1]
  lhsNonContracting := [0]
  rhsNonContracting := [0]
  lhsBatch := []
  rhsBatch := []
  wf := dot_S8x80000_S16x80000_S8x16_1_1_0_0_n_n_wf
def dot_S8x16_S16x16000_S8x16000_1_0_0_1_n_n : DotDims S8x16 S16x16000 S8x16000 where
  lhsContracting := [1]
  rhsContracting := [0]
  lhsNonContracting := [0]
  rhsNonContracting := [1]
  lhsBatch := []
  rhsBatch := []
  wf := dot_S8x16_S16x16000_S8x16000_1_0_0_1_n_n_wf

abbrev win0_0 : Pipeline.Window sig grid0 :=
  Pipeline.Window.ofSpec (Memref.whole main_arg0) S1x16x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x8x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x16x80000 : Shape := ⟨3, ![16, 16, 80000]⟩
abbrev S16x8x80000 : Shape := ⟨3, ![16, 8, 80000]⟩
abbrev S_ : Shape := ⟨0, ![]⟩
abbrev S16x8 : Shape := ⟨2, ![16, 8]⟩
abbrev S16x8x16 : Shape := ⟨3, ![16, 8, 16]⟩
abbrev S16x8x1 : Shape := ⟨3, ![16, 8, 1]⟩
abbrev S16x80000 : Shape := ⟨2, ![16, 80000]⟩
abbrev S16x1x80000 : Shape := ⟨3, ![16, 1, 80000]⟩
abbrev S16x8x1x16 : Shape := ⟨4, ![16, 8, 1, 16]⟩
abbrev S16x1x8x16 : Shape := ⟨4, ![16, 1, 8, 16]⟩
abbrev S16x8x8x16 : Shape := ⟨4, ![16, 8, 8, 16]⟩
abbrev S16x8x8 : Shape := ⟨3, ![16, 8, 8]⟩
abbrev S8x8 : Shape := ⟨2, ![8, 8]⟩
abbrev S1x8x8 : Shape := ⟨3, ![1, 8, 8]⟩
abbrev S16x1x8 : Shape := ⟨3, ![16, 1, 8]⟩
abbrev S16 : Shape := ⟨1, ![16]⟩

abbrev nBuf : Space → Nat
  | .hbm => 146
  | .vmem => 0
  | .smem => 0
  | _ => 0

abbrev hbmTy0_0 (i : Nat) : BufTy := match i % 128 with
  | 0 => ⟨S16x16x80000, .f32⟩
  | 1 => ⟨S16x8x80000, .i32⟩
  | 2 => ⟨S_, .i32⟩
  | 3 => ⟨S16x8x80000, .i32⟩
  | 4 => ⟨S16x8x80000, .i1⟩
  | 5 => ⟨S16x8x80000, .f32⟩
  | 6 => ⟨S_, .f32⟩
  | 7 => ⟨S16x8, .f32⟩
  | 8 => ⟨S_, .f32⟩
  | 9 => ⟨S16x8, .f32⟩
  | 10 => ⟨S16x8, .i1⟩
  | 11 => ⟨S_, .f32⟩
  | 12 => ⟨S16x8, .f32⟩
  | 13 => ⟨S16x8, .f32⟩
  | 14 => ⟨S16x8x16, .f32⟩
  | 15 => ⟨S16x8x1, .f32⟩
  | 16 => ⟨S16x8x16, .f32⟩
  | 17 => ⟨S16x8x16, .f32⟩
  | 18 => ⟨S16x16x80000, .f32⟩
  | 19 => ⟨S_, .f32⟩
  | 20 => ⟨S16x80000, .f32⟩
  | 21 => ⟨S16x8x16, .f32⟩
  | 22 => ⟨S_, .f32⟩
  | 23 => ⟨S16x8, .f32⟩
  | 24 => ⟨S16x8x80000, .f32⟩
  | 25 => ⟨S16x1x80000, .f32⟩
  | 26 => ⟨S_, .f32⟩
  | 27 => ⟨S16x8x80000, .f32⟩
  | 28 => ⟨S16x8x80000, .f32⟩
  | 29 => ⟨S16x8x80000, .f32⟩
  | 30 => ⟨S16x8x80000, .f32⟩
  | 31 => ⟨S16x8x1, .f32⟩
  | 32 => ⟨S16x8x80000, .f32⟩
  | 33 => ⟨S16x8x80000, .f32⟩
  | 34 => ⟨S_, .f32⟩
  | 35 => ⟨S16x8x80000, .f32⟩
  | 36 => ⟨S16x8x80000, .f32⟩
  | 37 => ⟨S_, .f32⟩
  | 38 => ⟨S16x8x80000, .f32⟩
  | 39 => ⟨S16x8x80000, .i1⟩
  | 40 => ⟨S_, .f32⟩
  | 41 => ⟨S_, .f32⟩
  | 42 => ⟨S16x8x80000, .f32⟩
  | 43 => ⟨S16x8x80000, .f32⟩
  | 44 => ⟨S16x8x80000, .f32⟩
  | 45 => ⟨S_, .f32⟩
  | 46 => ⟨S_, .f32⟩
  | 47 => ⟨S16x8x80000, .f32⟩
  | 48 => ⟨S16x8x80000, .f32⟩
  | 49 => ⟨S_, .f32⟩
  | 50 => ⟨S16x8x80000, .f32⟩
  | 51 => ⟨S16x8x80000, .f32⟩
  | 52 => ⟨S_, .f32⟩
  | 53 => ⟨S16x8x80000, .f32⟩
  | 54 => ⟨S16x8x80000, .f32⟩
  | 55 => ⟨S16x8x80000, .f32⟩
  | 56 => ⟨S16x8x80000, .f32⟩
  | 57 => ⟨S_, .f32⟩
  | 58 => ⟨S16x8, .f32⟩
  | 59 => ⟨S16x8, .f32⟩
  | 60 => ⟨S_, .f32⟩
  | 61 => ⟨S_, .f32⟩
  | 62 => ⟨S16x8, .f32⟩
  | 63 => ⟨S16x8, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S16x8x1x16, .f32⟩
  | 71 => ⟨S16x1x8x16, .f32⟩
  | 72 => ⟨S16x8x8x16, .f32⟩
  | 73 => ⟨S16x8x8x16, .f32⟩
  | 74 => ⟨S16x8x8x16, .f32⟩
  | 75 => ⟨S16x8x8x16, .f32⟩
  | 76 => ⟨S_, .f32⟩
  | 77 => ⟨S16x8x8, .f32⟩
  | 78 => ⟨S_, .f32⟩
  | 79 => ⟨S16x8x8, .f32⟩
  | 80 => ⟨S16x8x8, .i1⟩
  | 81 => ⟨S_, .f32⟩
  | 82 => ⟨S_, .f32⟩
  | 83 => ⟨S16x8x8, .f32⟩
  | 84 => ⟨S16x8x8, .f32⟩
  | 85 => ⟨S16x8x8, .f32⟩
  | 86 => ⟨S_, .f32⟩
  | 87 => ⟨S_, .f32⟩
  | 88 => ⟨S16x8x8, .f32⟩
  | 89 => ⟨S16x8x8, .f32⟩
  | 90 => ⟨S8x8, .i32⟩
  | 91 => ⟨S8x8, .i32⟩
  | 92 => ⟨S_, .i32⟩
  | 93 => ⟨S8x8, .i32⟩
  | 94 => ⟨S8x8, .i32⟩
  | 95 => ⟨S8x8, .i1⟩
  | 96 => ⟨S8x8, .f32⟩
  | 97 => ⟨S1x8x8, .f32⟩
  | 98 => ⟨S_, .f32⟩
  | 99 => ⟨S1x8x8, .f32⟩
  | 100 => ⟨S1x8x8, .f32⟩
  | 101 => ⟨S16x8x8, .f32⟩
  | 102 => ⟨S16x8x8, .f32⟩
  | 103 => ⟨S16x8x1, .i1⟩
  | 104 => ⟨S16x1x8, .i1⟩
  | 105 => ⟨S16x8x8, .i1⟩
  | 106 => ⟨S16x8x8, .i1⟩
  | 107 => ⟨S16x8x8, .i1⟩
  | 108 => ⟨S16x8x8, .f32⟩
  | 109 => ⟨S_, .f32⟩
  | 110 => ⟨S16x8x8, .f32⟩
  | 111 => ⟨S16x8x8, .f32⟩
  | 112 => ⟨S_, .f32⟩
  | 113 => ⟨S16x8x8, .f32⟩
  | 114 => ⟨S16x8x8, .f32⟩
  | 115 => ⟨S16x8x8, .f32⟩
  | 116 => ⟨S16x8x8, .f32⟩
  | 117 => ⟨S16x8, .i32⟩
  | 118 => ⟨S_, .i32⟩
  | 119 => ⟨S16, .i32⟩
  | 120 => ⟨S16, .f32⟩
  | 121 => ⟨S_, .f32⟩
  | 122 => ⟨S16, .f32⟩
  | 123 => ⟨S16, .f32⟩
  | 124 => ⟨S16, .f32⟩
  | 125 => ⟨S_, .f32⟩
  | 126 => ⟨S16, .f32⟩
  | 127 => ⟨S16, .i1⟩
  | _ => ⟨S16x16x80000, .f32⟩

abbrev hbmTy0_1 (i : Nat) : BufTy := match i % 128 with
  | 0 => ⟨S_, .f32⟩
  | 1 => ⟨S16, .f32⟩
  | 2 => ⟨S_, .f32⟩
  | 3 => ⟨S16, .f32⟩
  | 4 => ⟨S16, .f32⟩
  | 5 => ⟨S16, .f32⟩
  | 6 => ⟨S_, .f32⟩
  | 7 => ⟨S16, .f32⟩
  | 8 => ⟨S16, .f32⟩
  | 9 => ⟨S_, .f32⟩
  | 10 => ⟨S_, .f32⟩
  | 11 => ⟨S16, .f32⟩
  | 12 => ⟨S16, .f32⟩
  | 13 => ⟨S_, .f32⟩
  | 14 => ⟨S_, .f32⟩
  | 15 => ⟨S_, .f32⟩
  | 16 => ⟨S_, .f32⟩
  | 17 => ⟨S_, .f32⟩
  | _ => ⟨S16x16x80000, .f32⟩

abbrev hbmTy (i : Nat) : BufTy := match i / 128 with
  | 0 => hbmTy0_0 i
  | 1 => hbmTy0_1 i
  | _ => ⟨S16x16x80000, .f32⟩

abbrev bufTy : (tb : Table) → Fin (tcTables nBuf tb) → BufTy
  | .hbm, ⟨i, _⟩ => hbmTy i
  | _, _ => ⟨S16x16x80000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_call0_v0 : Ref sig .tc := ⟨.hbm, 41, rfl⟩
abbrev main_call0_v1 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_call2_cst : Ref sig .tc := ⟨.hbm, 52, rfl⟩
abbrev main_call2_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_call3_v0 : Ref sig .tc := ⟨.hbm, 61, rfl⟩
abbrev main_call3_v1 : Ref sig .tc := ⟨.hbm, 62, rfl⟩
abbrev main_v39 : Ref sig .tc := ⟨.hbm, 63, rfl⟩
abbrev main_cst_12 : Ref sig .tc := ⟨.hbm, 64, rfl⟩
abbrev main_v40 : Ref sig .tc := ⟨.hbm, 65, rfl⟩
abbrev main_cst_13 : Ref sig .tc := ⟨.hbm, 66, rfl⟩
abbrev main_v41 : Ref sig .tc := ⟨.hbm, 67, rfl⟩
abbrev main_cst_14 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_15 : Ref sig .tc := ⟨.hbm, 76, rfl⟩
abbrev main_v49 : Ref sig .tc := ⟨.hbm, 77, rfl⟩
abbrev main_cst_16 : Ref sig .tc := ⟨.hbm, 78, rfl⟩
abbrev main_v50 : Ref sig .tc := ⟨.hbm, 79, rfl⟩
abbrev main_v51 : Ref sig .tc := ⟨.hbm, 80, rfl⟩
abbrev main_cst_17 : Ref sig .tc := ⟨.hbm, 81, rfl⟩
abbrev main_call4_v0 : Ref sig .tc := ⟨.hbm, 82, rfl⟩
abbrev main_call4_v1 : Ref sig .tc := ⟨.hbm, 83, rfl⟩
abbrev main_v52 : Ref sig .tc := ⟨.hbm, 84, rfl⟩
abbrev main_v53 : Ref sig .tc := ⟨.hbm, 85, rfl⟩
abbrev main_cst_18 : Ref sig .tc := ⟨.hbm, 86, rfl⟩
abbrev main_call5_v0 : Ref sig .tc := ⟨.hbm, 87, rfl⟩
abbrev main_call5_v1 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_19 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_20 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_21 : Ref sig .tc := ⟨.hbm, 109, rfl⟩
abbrev main_v72 : Ref sig .tc := ⟨.hbm, 110, rfl⟩
abbrev main_v73 : Ref sig .tc := ⟨.hbm, 111, rfl⟩
abbrev main_call6_cst : Ref sig .tc := ⟨.hbm, 112, rfl⟩
abbrev main_call6_v0 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_22 : Ref sig .tc := ⟨.hbm, 118, rfl⟩
abbrev main_v78 : Ref sig .tc := ⟨.hbm, 119, rfl⟩
abbrev main_v79 : Ref sig .tc := ⟨.hbm, 120, rfl⟩
abbrev main_cst_23 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_24 : Ref sig .tc := ⟨.hbm, 125, rfl⟩
abbrev main_v83 : Ref sig .tc := ⟨.hbm, 126, rfl⟩
abbrev main_v84 : Ref sig .tc := ⟨.hbm, 127, rfl⟩
abbrev main_cst_25 : Ref sig .tc := ⟨.hbm, 128, rfl⟩
abbrev main_v85 : Ref sig .tc := ⟨.hbm, 129, rfl⟩
abbrev main_cst_26 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_27 : Ref sig .tc := ⟨.hbm, 134, rfl⟩
abbrev main_v89 : Ref sig .tc := ⟨.hbm, 135, rfl⟩
abbrev main_v90 : Ref sig .tc := ⟨.hbm, 136, rfl⟩
abbrev main_cst_28 : Ref sig .tc := ⟨.hbm, 137, rfl⟩
abbrev main_call7_v0 : Ref sig .tc := ⟨.hbm, 138, rfl⟩
abbrev main_call7_v1 : Ref sig .tc := ⟨.hbm, 139, rfl⟩
abbrev main_v91 : Ref sig .tc := ⟨.hbm, 140, rfl⟩
abbrev main_cst_29 : Ref sig .tc := ⟨.hbm, 141, rfl⟩
abbrev main_v92 : Ref sig .tc := ⟨.hbm, 142, rfl⟩
abbrev main_cst_30 : Ref sig .tc := ⟨.hbm, 143, rfl⟩
abbrev main_v93 : Ref sig .tc := ⟨.hbm, 144, rfl⟩
abbrev main_cst_31 : Ref sig .tc := ⟨.hbm, 145, rfl⟩

abbrev nD : Nat := 1
abbrev τ : Topo := Topo.v7x

variable {F : FTy → Type} [FloatOps F]

class Facts₀ : Prop where
  bcast_S_S16x8x80000 : S_.BroadcastsInDim S16x8x80000 (![] : Fin 0 → Fin S16x8x80000.rank)
  reducesTo_S16x8x80000_S16x8_d2 : S16x8x80000.ReducesTo [2] S16x8
  h_S_ : 0 < S_.numel
  bcast_S_S16x8 : S_.BroadcastsInDim S16x8 (![] : Fin 0 → Fin S16x8.rank)
  bcast_S16x8_S16x8x1_0_1 : S16x8.BroadcastsInDim S16x8x1 (![0, 1] : Fin 2 → Fin S16x8x1.rank)
  bcast_S16x8x1_S16x8x16_0_1_2 : S16x8x1.BroadcastsInDim S16x8x16 (![0, 1, 2] : Fin 3 → Fin S16x8x16.rank)
  reducesTo_S16x16x80000_S16x80000_d1 : S16x16x80000.ReducesTo [1] S16x80000
  reducesTo_S16x8x16_S16x8_d2 : S16x8x16.ReducesTo [2] S16x8
  bcast_S16x80000_S16x1x80000_0_2 : S16x80000.BroadcastsInDim S16x1x80000 (![0, 2] : Fin 2 → Fin S16x1x80000.rank)
  bcast_S16x1x80000_S16x8x80000_0_1_2 : S16x1x80000.BroadcastsInDim S16x8x80000 (![0, 1, 2] : Fin 3 → Fin S16x8x80000.rank)
  bcast_S16x8x1_S16x8x80000_0_1_2 : S16x8x1.BroadcastsInDim S16x8x80000 (![0, 1, 2] : Fin 3 → Fin S16x8x80000.rank)
  reducesTo_S16x8_S_d0_1 : S16x8.ReducesTo [0, 1] S_
  bcast_S16x8x16_S16x8x1x16_0_1_3 : S16x8x16.BroadcastsInDim S16x8x1x16 (![0, 1, 3] : Fin 3 → Fin S16x8x1x16.rank)
  bcast_S16x8x16_S16x1x8x16_0_2_3 : S16x8x16.BroadcastsInDim S16x1x8x16 (![0, 2, 3] : Fin 3 → Fin S16x1x8x16.rank)
  bcast_S16x8x1x16_S16x8x8x16_0_1_2_3 : S16x8x1x16.BroadcastsInDim S16x8x8x16 (![0, 1, 2, 3] : Fin 4 → Fin S16x8x8x16.rank)
  bcast_S16x1x8x16_S16x8x8x16_0_1_2_3 : S16x1x8x16.BroadcastsInDim S16x8x8x16 (![0, 1, 2, 3] : Fin 4 → Fin S16x8x8x16.rank)
  reducesTo_S16x8x8x16_S16x8x8_d3 : S16x8x8x16.ReducesTo [3] S16x8x8
  bcast_S_S16x8x8 : S_.BroadcastsInDim S16x8x8 (![] : Fin 0 → Fin S16x8x8.rank)
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S_S1x8x8 : S_.BroadcastsInDim S1x8x8 (![] : Fin 0 → Fin S1x8x8.rank)
  bcast_S1x8x8_S16x8x8_0_1_2 : S1x8x8.BroadcastsInDim S16x8x8 (![0, 1, 2] : Fin 3 → Fin S16x8x8.rank)
  bcast_S16x8_S16x1x8_0_2 : S16x8.BroadcastsInDim S16x1x8 (![0, 2] : Fin 2 → Fin S16x1x8.rank)
  bcast_S16x8x1_S16x8x8_0_1_2 : S16x8x1.BroadcastsInDim S16x8x8 (![0, 1, 2] : Fin 3 → Fin S16x8x8.rank)
  bcast_S16x1x8_S16x8x8_0_1_2 : S16x1x8.BroadcastsInDim S16x8x8 (![0, 1, 2] : Fin 3 → Fin S16x8x8.rank)
  natLt_1_32 : 1 < 32
  reducesTo_S16x8_S16_d1 : S16x8.ReducesTo [1] S16
  bcast_S_S16 : S_.BroadcastsInDim S16 (![] : Fin 0 → Fin S16.rank)
  reducesTo_S16x8x8_S16_d1_2 : S16x8x8.ReducesTo [1, 2] S16
  reducesTo_S16_S_d0 : S16.ReducesTo [0] S_
  dot_S16x8x80000_S16x16x80000_S16x8x16_2_2_1_1_0_0_wf : DotDims.WF S16x8x80000 S16x16x80000 S16x8x16 [2] [2] [1] [1] [0] [0]
  dot_S16x8x16_S16x16x80000_S16x8x80000_2_1_1_2_0_0_wf : DotDims.WF S16x8x16 S16x16x80000 S16x8x80000 [2] [1] [1] [2] [0] [0]

variable [Facts₀]

def dot_S16x8x80000_S16x16x80000_S16x8x16_2_2_1_1_0_0 : DotDims S16x8x80000 S16x16x80000 S16x8x16 where
  lhsContracting := [2]
  rhsContracting := [2]
  lhsNonContracting := [1]
  rhsNonContracting := [1]
  lhsBatch := [0]
  rhsBatch := [0]
  wf := dot_S16x8x80000_S16x16x80000_S16x8x16_2_2_1_1_0_0_wf
def dot_S16x8x16_S16x16x80000_S16x8x80000_2_1_1_2_0_0 : DotDims S16x8x16 S16x16x80000 S16x8x80000 where
  lhsContracting := [2]
  rhsContracting := [1]
  lhsNonContracting := [1]
  rhsNonContracting := [2]
  lhsBatch := [0]
  rhsBatch := [0]
  wf := dot_S16x8x16_S16x16x80000_S16x8x80000_2_1_1_2_0_0_wf

class Facts : Prop extends Facts₀ where

variable [Facts]
-- ==== Proof.KernelKit.lean ====
/-
  The launch side of the one grid region of this program, for every float instance: the contents of the
  device buffers when the region is entered, the host operations that follow the region (they read what the
  region wrote and write only buffers of their own), each input window's block at a grid point, and how the
  run's final memory gives back the two argument arrays unchanged.
-/
import proofs.«130922_j41437844472370_2_alg».proof.Proof.Gen.Kernel.Launch
import proofs.«130922_j41437844472370_2_alg».proof.Proof.Gen.Kernel.Skeleton
import proofs.«130922_j41437844472370_2_alg».proof.Proof.Gen.Kernel.Loops
import proofs.«130922_j41437844472370_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The host operations after the region, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10]

/-- The device buffers as the region finds them: nothing runs before it, so they are the initial memory. -/
abbrev V0 (c : Dev nD) : Valuation τ sig (Elt F) := StableHlo.after (List.flatten []) (fun b => m (c, b))
/-- The same, read at one buffer. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- The program is its region followed by the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- Every host operation after the region touches only the region's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- None of them allocates. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- No operation of this stretch writes an array of the region: each writes its own result buffer only. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_9_keeps : ∀ op ∈ (hostOps1_9 : List (HloOp τ sig (Elt F))), ∀ w, Proc.devRef .tc (Pipeline.arrRef spec0 w) ∉ op.writes := by
  intro op hop
  simp only [hostOps1_9, List.mem_cons, List.mem_nil_iff, or_false] at hop
  rcases hop with rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_10_keeps : ∀ op ∈ (hostOps1_10 : List (HloOp τ sig (Elt F))), ∀ w, Proc.devRef .tc (Pipeline.arrRef spec0 w) ∉ op.writes := by
  intro op hop
  simp only [hostOps1_10, List.mem_cons, List.mem_nil_iff, or_false] at hop
  rcases hop with rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- So the arrays of the region are as the region left them when the program ends. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second input's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- A run whose final memory has every array of the region at what the proof data says ends with both
    argument arrays as they were: an input array is only ever read. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

/-! ## The staging buffers the body is called with -/

/-- One staging buffer of each output window, through which its contents are stated. -/
abbrev VO0_2 : View sig .tc .vmem S1x8x16 .f32 := (Memref.whole cc0_stg2_0 : Memref sig .tc .vmem S1x8x16 .f32).view
abbrev VO0_3 : View sig .tc .vmem S1x8x1 .f32 := (Memref.whole cc0_stg3_0 : Memref sig .tc .vmem S1x8x1 .f32).view
abbrev VO0_4 : View sig .tc .vmem S1x8x1 .f32 := (Memref.whole cc0_stg4_0 : Memref sig .tc .vmem S1x8x1 .f32).view
/-- Each window's current staging buffer at point `t`, and that it is a whole buffer. -/
abbrev ms0_0 (t : Fin cfg0.N) : Memref sig .tc .vmem S1x16x80000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x80000 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1 .f32 := win0_4.stage (cfg0.slots t 4)
abbrev hs0_4 (t : Fin cfg0.N) : (ms0_4 t).IsWhole := hstage0_4 ((cfg0.slots t 4).cast nbuf0_4)

end Cert.Kernel.Fr

end
-- ==== Proof.KernelBody.lean ====
/-
  The kernel body at one grid point, for every float instance. From the two input blocks it stores the
  centroids' block, the counts' block and, after the five chunks of the variance pass, the accumulated
  block; what each output buffer ends with is recorded as the list of the pieces stored into it.
-/
import proofs.«130922_j41437844472370_2_alg».proof.Proof.KernelKit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers — the inputs' at their blocks `x0`, `x1`, the outputs' at anything — the body runs
    to its end, leaves the inputs' buffers as they were and each output's buffer with its stored pieces written. -/
noncomputable def kernelRun0_A (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) :
    Σ' (L2 : List (View.Piece (Elt F) S1x8x16 .f32)) (L3 : List (View.Piece (Elt F) S1x8x1 .f32)), { L4 : List (View.Piece (Elt F) S1x8x1 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__fused_kernel i arg1 harg1 arg2 harg2 arg3 harg3 arg4 harg4 arg5 harg5) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.Kernel.Fr

end
-- ==== Proof.KernelFrame.lean ====
/-
  The run of the whole program, for every float instance: at each of the sixteen grid points the body finds the
  two input blocks in its staging buffers and leaves the three output blocks it computes from them; the blocks
  are written back to the three result arrays, the host operations after the region then run on those arrays,
  and the two argument arrays are never written.
-/
import proofs.«130922_j41437844472370_2_alg».proof.Proof.KernelBody

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces stored into output window 2's buffer are one store of its whole block, so they cover it. -/
theorem cover0_A_2 (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) (y : S1x8x16.Idx) :
    ∃ pc ∈ (kernelRun0_A c i arg1 harg1 arg2 harg2 arg3 harg3 arg4 harg4 arg5 harg5 x0 x1).1, y ∈ pc.1.set :=
  View.cover_of_tiledL (kernelRun0_A c i arg1 harg1 arg2 harg2 arg3 harg3 arg4 harg4 arg5 harg5 x0 x1).1 S1x8x16.size (by sl_kernel_rfl) y

/-- What the body leaves in output window 2's staging buffer: its pieces read back. -/
def out0_A_2 (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) : Vec F S1x8x16 .f32 :=
  VO0_2.read (Elt F) (VO0_2.writes (Elt F) VO0_2.junk (kernelRun0_A c i arg1 harg1 arg2 harg2 arg3 harg3 arg4 harg4 arg5 harg5 x0 x1).1)

/-- The pieces stored into output window 3's buffer are one store of its whole block, so they cover it. -/
theorem cover0_A_3 (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) (y : S1x8x1.Idx) :
    ∃ pc ∈ (kernelRun0_A c i arg1 harg1 arg2 harg2 arg3 harg3 arg4 harg4 arg5 harg5 x0 x1).2.1, y ∈ pc.1.set :=
  View.cover_of_tiledL (kernelRun0_A c i arg1 harg1 arg2 harg2 arg3 harg3 arg4 harg4 arg5 harg5 x0 x1).2.1 S1x8x1.size (by sl_kernel_rfl) y

/-- What the body leaves in output window 3's staging buffer: its pieces read back. -/
def out0_A_3 (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) : Vec F S1x8x1 .f32 :=
  VO0_3.read (Elt F) (VO0_3.writes (Elt F) VO0_3.junk (kernelRun0_A c i arg1 harg1 arg2 harg2 arg3 harg3 arg4 harg4 arg5 harg5 x0 x1).2.1)

/-- The pieces stored into output window 4's buffer are one store of its whole block, so they cover it. -/
theorem cover0_A_4 (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) (y : S1x8x1.Idx) :
    ∃ pc ∈ (kernelRun0_A c i arg1 harg1 arg2 harg2 arg3 harg3 arg4 harg4 arg5 harg5 x0 x1).2.2.1, y ∈ pc.1.set :=
  View.cover_of_tiledL (kernelRun0_A c i arg1 harg1 arg2 harg2 arg3 harg3 arg4 harg4 arg5 harg5 x0 x1).2.2.1 S1x8x1.size (by sl_kernel_rfl) y

/-- What the body leaves in output window 4's staging buffer: its pieces read back. -/
def out0_A_4 (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) : Vec F S1x8x1 .f32 :=
  VO0_4.read (Elt F) (VO0_4.writes (Elt F) VO0_4.junk (kernelRun0_A c i arg1 harg1 arg2 harg2 arg3 harg3 arg4 harg4 arg5 harg5 x0 x1).2.2.1)

/-! ## The proof data of the region -/

/-- After the body at point `t`: each input's buffer still at its block, each output's at what the body stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_A_2 c (grid0.coords t) (ms0_0 t) (hs0_0 t) (ms0_1 t) (hs0_1 t) (ms0_2 t) (hs0_2 t) (ms0_3 t) (hs0_3 t) (ms0_4 t) (hs0_4 t) (iblk m c 0 t) (iblk m c 1 t)
    | ⟨3, _⟩ => out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t)
    | ⟨4, _⟩ => out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_A_2 c (grid0.coords t) (ms0_0 t) (hs0_0 t) (ms0_1 t) (hs0_1 t) (ms0_2 t) (hs0_2 t) (ms0_3 t) (hs0_3 t) (ms0_4 t) (hs0_4 t) (iblk m c 0 t) (iblk m c 1 t) := by dsimp only [dats]
theorem after0_3 (c : Dev nD) (t : Fin cfg0.N) : (dats m 0 c).after 3 t = out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) := by dsimp only [dats]
theorem after0_4 (c : Dev nD) (t : Fin cfg0.N) : (dats m 0 c).after 4 t = out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
/-- The body at any point: the inputs' buffers hold their blocks, so the body's run applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold out0_A_2 out0_A_3 out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t)).2.2.2 Set.univ _)
  isplitl [H0]; · iexact H0
  isplitl [H1]; · iexact H1
  isplitl [H2]; · iexists _; iexact H2
  isplitl [H3]; · iexists _; iexact H3
  isplitl [H4]; · iexists _; iexact H4
  iintro ⟨H0, H1, ⟨%e2, H2⟩, ⟨%e3, H3⟩, ⟨%e4, H4⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _)
  unfold owns; iexists _; isplitr
  swap; · iexact H4
  ipureintro; exact View.read_writes_of_cover _ _ _ _ _ (cover0_A_4 c _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; at the end every array of the region holds what the
    proof data says and every other buffer what the host operations after the region leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The program terminates without a fault and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fr

end
-- ==== Proof.KernelIdealKit.lean ====
/-
  The launch side of the one grid region of this program, for every float instance: the contents of the
  device buffers when the region is entered, the host operations that follow the region (they read what the
  region wrote and write only buffers of their own), each input window's block at a grid point, and how the
  run's final memory gives back the two argument arrays unchanged.
-/
import proofs.«130922_j41437844472370_2_alg».proof.Proof.Gen.KernelIdeal.Launch
import proofs.«130922_j41437844472370_2_alg».proof.Proof.Gen.KernelIdeal.Skeleton
import proofs.«130922_j41437844472370_2_alg».proof.Proof.Gen.KernelIdeal.Loops
import proofs.«130922_j41437844472370_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The host operations after the region, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10]

/-- The device buffers as the region finds them: nothing runs before it, so they are the initial memory. -/
abbrev V0 (c : Dev nD) : Valuation τ sig (Elt F) := StableHlo.after (List.flatten []) (fun b => m (c, b))
/-- The same, read at one buffer. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- The program is its region followed by the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- Every host operation after the region touches only the region's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- None of them allocates. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- No operation of this stretch writes an array of the region: each writes its own result buffer only. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_9_keeps : ∀ op ∈ (hostOps1_9 : List (HloOp τ sig (Elt F))), ∀ w, Proc.devRef .tc (Pipeline.arrRef spec0 w) ∉ op.writes := by
  intro op hop
  simp only [hostOps1_9, List.mem_cons, List.mem_nil_iff, or_false] at hop
  rcases hop with rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No operation of this stretch writes an array of the region: each writes its own result buffer only. -/
theorem hostOps1_10_keeps : ∀ op ∈ (hostOps1_10 : List (HloOp τ sig (Elt F))), ∀ w, Proc.devRef .tc (Pipeline.arrRef spec0 w) ∉ op.writes := by
  intro op hop
  simp only [hostOps1_10, List.mem_cons, List.mem_nil_iff, or_false] at hop
  rcases hop with rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- So the arrays of the region are as the region left them when the program ends. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second input's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- A run whose final memory has every array of the region at what the proof data says ends with both
    argument arrays as they were: an input array is only ever read. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

/-! ## The staging buffers the body is called with -/

/-- One staging buffer of each output window, through which its contents are stated. -/
abbrev VO0_2 : View sig .tc .vmem S1x8x16 .f32 := (Memref.whole cc0_stg2_0 : Memref sig .tc .vmem S1x8x16 .f32).view
abbrev VO0_3 : View sig .tc .vmem S1x8x1 .f32 := (Memref.whole cc0_stg3_0 : Memref sig .tc .vmem S1x8x1 .f32).view
abbrev VO0_4 : View sig .tc .vmem S1x8x1 .f32 := (Memref.whole cc0_stg4_0 : Memref sig .tc .vmem S1x8x1 .f32).view
/-- Each window's current staging buffer at point `t`, and that it is a whole buffer. -/
abbrev ms0_0 (t : Fin cfg0.N) : Memref sig .tc .vmem S1x16x80000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x80000 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1 .f32 := win0_4.stage (cfg0.slots t 4)
abbrev hs0_4 (t : Fin cfg0.N) : (ms0_4 t).IsWhole := hstage0_4 ((cfg0.slots t 4).cast nbuf0_4)

end Cert.KernelIdeal.Fr

end
-- ==== Proof.KernelIdealBody.lean ====
/-
  The kernel body at one grid point, for every float instance. From the two input blocks it stores the
  centroids' block, the counts' block and, after the five chunks of the variance pass, the accumulated
  block; what each output buffer ends with is recorded as the list of the pieces stored into it.
-/
import proofs.«130922_j41437844472370_2_alg».proof.Proof.KernelIdealKit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers — the inputs' at their blocks `x0`, `x1`, the outputs' at anything — the body runs
    to its end, leaves the inputs' buffers as they were and each output's buffer with its stored pieces written. -/
noncomputable def kernelRun0_A (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) :
    Σ' (L2 : List (View.Piece (Elt F) S1x8x16 .f32)) (L3 : List (View.Piece (Elt F) S1x8x1 .f32)), { L4 : List (View.Piece (Elt F) S1x8x1 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__fused_kernel i arg1 harg1 arg2 harg2 arg3 harg3 arg4 harg4 arg5 harg5) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.KernelIdeal.Fr

end
-- ==== Proof.KernelIdealFrame.lean ====
/-
  The run of the whole program, for every float instance: at each of the sixteen grid points the body finds the
  two input blocks in its staging buffers and leaves the three output blocks it computes from them; the blocks
  are written back to the three result arrays, the host operations after the region then run on those arrays,
  and the two argument arrays are never written.
-/
import proofs.«130922_j41437844472370_2_alg».proof.Proof.KernelIdealBody

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces stored into output window 2's buffer are one store of its whole block, so they cover it. -/
theorem cover0_A_2 (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) (y : S1x8x16.Idx) :
    ∃ pc ∈ (kernelRun0_A c i arg1 harg1 arg2 harg2 arg3 harg3 arg4 harg4 arg5 harg5 x0 x1).1, y ∈ pc.1.set :=
  View.cover_of_tiledL (kernelRun0_A c i arg1 harg1 arg2 harg2 arg3 harg3 arg4 harg4 arg5 harg5 x0 x1).1 S1x8x16.size (by sl_kernel_rfl) y

/-- What the body leaves in output window 2's staging buffer: its pieces read back. -/
def out0_A_2 (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) : Vec F S1x8x16 .f32 :=
  VO0_2.read (Elt F) (VO0_2.writes (Elt F) VO0_2.junk (kernelRun0_A c i arg1 harg1 arg2 harg2 arg3 harg3 arg4 harg4 arg5 harg5 x0 x1).1)

/-- The pieces stored into output window 3's buffer are one store of its whole block, so they cover it. -/
theorem cover0_A_3 (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) (y : S1x8x1.Idx) :
    ∃ pc ∈ (kernelRun0_A c i arg1 harg1 arg2 harg2 arg3 harg3 arg4 harg4 arg5 harg5 x0 x1).2.1, y ∈ pc.1.set :=
  View.cover_of_tiledL (kernelRun0_A c i arg1 harg1 arg2 harg2 arg3 harg3 arg4 harg4 arg5 harg5 x0 x1).2.1 S1x8x1.size (by sl_kernel_rfl) y

/-- What the body leaves in output window 3's staging buffer: its pieces read back. -/
def out0_A_3 (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) : Vec F S1x8x1 .f32 :=
  VO0_3.read (Elt F) (VO0_3.writes (Elt F) VO0_3.junk (kernelRun0_A c i arg1 harg1 arg2 harg2 arg3 harg3 arg4 harg4 arg5 harg5 x0 x1).2.1)

/-- The pieces stored into output window 4's buffer are one store of its whole block, so they cover it. -/
theorem cover0_A_4 (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) (y : S1x8x1.Idx) :
    ∃ pc ∈ (kernelRun0_A c i arg1 harg1 arg2 harg2 arg3 harg3 arg4 harg4 arg5 harg5 x0 x1).2.2.1, y ∈ pc.1.set :=
  View.cover_of_tiledL (kernelRun0_A c i arg1 harg1 arg2 harg2 arg3 harg3 arg4 harg4 arg5 harg5 x0 x1).2.2.1 S1x8x1.size (by sl_kernel_rfl) y

/-- What the body leaves in output window 4's staging buffer: its pieces read back. -/
def out0_A_4 (c : Dev nD) (i : grid0.Coords) (arg1 : Memref sig .tc .vmem S1x16x80000 .f32) (harg1 : arg1.IsWhole) (arg2 : Memref sig .tc .vmem S1x8x80000 .i32) (harg2 : arg2.IsWhole) (arg3 : Memref sig .tc .vmem S1x8x16 .f32) (harg3 : arg3.IsWhole) (arg4 : Memref sig .tc .vmem S1x8x1 .f32) (harg4 : arg4.IsWhole) (arg5 : Memref sig .tc .vmem S1x8x1 .f32) (harg5 : arg5.IsWhole)
    (x0 : Vec F S1x16x80000 .f32) (x1 : Vec F S1x8x80000 .i32) : Vec F S1x8x1 .f32 :=
  VO0_4.read (Elt F) (VO0_4.writes (Elt F) VO0_4.junk (kernelRun0_A c i arg1 harg1 arg2 harg2 arg3 harg3 arg4 harg4 arg5 harg5 x0 x1).2.2.1)

/-! ## The proof data of the region -/

/-- After the body at point `t`: each input's buffer still at its block, each output's at what the body stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_A_2 c (grid0.coords t) (ms0_0 t) (hs0_0 t) (ms0_1 t) (hs0_1 t) (ms0_2 t) (hs0_2 t) (ms0_3 t) (hs0_3 t) (ms0_4 t) (hs0_4 t) (iblk m c 0 t) (iblk m c 1 t)
    | ⟨3, _⟩ => out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t)
    | ⟨4, _⟩ => out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_A_2 c (grid0.coords t) (ms0_0 t) (hs0_0 t) (ms0_1 t) (hs0_1 t) (ms0_2 t) (hs0_2 t) (ms0_3 t) (hs0_3 t) (ms0_4 t) (hs0_4 t) (iblk m c 0 t) (iblk m c 1 t) := by dsimp only [dats]
theorem after0_3 (c : Dev nD) (t : Fin cfg0.N) : (dats m 0 c).after 3 t = out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) := by dsimp only [dats]
theorem after0_4 (c : Dev nD) (t : Fin cfg0.N) : (dats m 0 c).after 4 t = out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
/-- The body at any point: the inputs' buffers hold their blocks, so the body's run applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold out0_A_2 out0_A_3 out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t)).2.2.2 Set.univ _)
  isplitl [H0]; · iexact H0
  isplitl [H1]; · iexact H1
  isplitl [H2]; · iexists _; iexact H2
  isplitl [H3]; · iexists _; iexact H3
  isplitl [H4]; · iexists _; iexact H4
  iintro ⟨H0, H1, ⟨%e2, H2⟩, ⟨%e3, H3⟩, ⟨%e4, H4⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _)
  unfold owns; iexists _; isplitr
  swap; · iexact H4
  ipureintro; exact View.read_writes_of_cover _ _ _ _ _ (cover0_A_4 c _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; at the end every array of the region holds what the
    proof data says and every other buffer what the host operations after the region leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The program terminates without a fault and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fr

end
-- ==== Proof.RefFrame.lean ====
/-
  The reference program is a straight line of host operations: its run ends with every result at the
  operations' composed term of the argument arrays, and the argument arrays are never written.
-/
import proofs.«130922_j41437844472370_2_alg».proof.Defs
import proofs.«130922_j41437844472370_2_alg».proof.Proof.Gen.ReferenceIdeal
import proofs.«130922_j41437844472370_2_alg».proof.Proof.Gen.Pre_finite_inputs
import proofs.«130922_j41437844472370_2_alg».proof.Proof.RefRunP

noncomputable section

open Idealize.ShloMosaic Idealize.ShloMosaic.TcCoe Idealize.SL.Sem

namespace Cert.Proof.RefFrame

/-- The reference terminates without a fault and leaves both argument arrays as it found them. -/
theorem frame_ri : Cert.frame_ReferenceIdeal := fun m ρ _ =>
  (θ_run Cert.ReferenceIdeal.defs _ _).mono (fun _ h c => (h c).2.2.2) (Cert.ReferenceIdeal.ValueP.run (F := Ideal) m ρ)

end Cert.Proof.RefFrame

end
-- ==== Proof.KernelIdealSpec.lean ====
/-
  What the three result arrays of the grid region hold, as functions of the two argument arrays, for every
  float instance. Grid point `b` sees batch element `b` of each argument as its block; the centroids' block
  and the counts' block are the body's stored terms of the two blocks, and the accumulated block is the
  body's chunk term folded over the five chunks of 16000 columns, first to last, from the zero column.
-/
import proofs.«130922_j41437844472370_2_alg».proof.Proof.Gen.KernelIdeal.Skeleton
import Idealize.ShloMosaic.Lib.ValueIdx

noncomputable section

namespace Cert.KernelIdeal.Spec

open Idealize.ShloMosaic Idealize.ShloMosaic.ValueIdx Cert.KernelIdeal Cert.KernelIdeal.Gen

variable {F : FTy → Type} [FloatOps F]

/-- Batch element `b` of the embedding array `[16,16,80000]`, as the block `[1,16,80000]` a grid point sees. -/
def blk0 (X0 : S16x16x80000.Idx → Elt F .f32) (b : Fin 16) : Vec F S1x16x80000 .f32 :=
  fun j => X0 (ix3 b (j 1 : Fin 16) (j 2 : Fin 80000))

/-- Batch element `b` of the label array `[16,8,80000]`, as the block `[1,8,80000]`. -/
def blk1 (X1 : S16x8x80000.Idx → Elt F .i32) (b : Fin 16) : Vec F S1x8x80000 .i32 :=
  fun j => X1 (ix3 b (j 1 : Fin 8) (j 2 : Fin 80000))

/-- Chunk `k` of an embedding block: columns `16000 k … 16000 k + 15999`. -/
def chunk0 (x0 : Vec F S1x16x80000 .f32) (k : Fin 5) : Vec F S1x16x16000 .f32 :=
  fun j => x0 (ix3 (0 : Fin 1) (j 1 : Fin 16) (⟨16000 * k.val + (j 2 : Fin 16000).val, by
    have h1 : (j 2 : Fin 16000).val < 16000 := (j 2 : Fin 16000).isLt; have h2 : k.val < 5 := k.isLt; omega⟩ : Fin 80000))

/-- Chunk `k` of a label block. -/
def chunk1 (x1 : Vec F S1x8x80000 .i32) (k : Fin 5) : Vec F S1x8x16000 .i32 :=
  fun j => x1 (ix3 (0 : Fin 1) (j 1 : Fin 8) (⟨16000 * k.val + (j 2 : Fin 16000).val, by
    have h1 : (j 2 : Fin 16000).val < 16000 := (j 2 : Fin 16000).isLt; have h2 : k.val < 5 := k.isLt; omega⟩ : Fin 80000))

/-- The accumulated column after `k` chunks: the zero column, then one chunk term added per chunk, in order. -/
def lane (x0 : Vec F S1x16x80000 .f32) (x1 : Vec F S1x8x80000 .i32) : ℕ → FVec F S8x1 .f32
  | 0 => k0_pay7
  | k + 1 => if h : k < 5 then k0_pay8 x0 x1 (lane x0 x1 k) (chunk0 x0 ⟨k, h⟩) (chunk1 x1 ⟨k, h⟩) else lane x0 x1 k

/-- The centroids' array `[16,8,16]`. -/
def G2 (X0 : S16x16x80000.Idx → Elt F .f32) (X1 : S16x8x80000.Idx → Elt F .i32) : S16x8x16.Idx → Elt F .f32 :=
  fun i => k0_pay5 (blk0 X0 (i 0 : Fin 16)) (blk1 X1 (i 0 : Fin 16)) (ix3 (0 : Fin 1) (i 1 : Fin 8) (i 2 : Fin 16))

/-- The counts' array `[16,8,1]`. -/
def G3 (X1 : S16x8x80000.Idx → Elt F .i32) : S16x8x1.Idx → Elt F .f32 :=
  fun i => k0_pay6 (blk1 X1 (i 0 : Fin 16)) (ix3 (0 : Fin 1) (i 1 : Fin 8) (i 2 : Fin 1))

/-- The accumulated array `[16,8,1]`. -/
def G4 (X0 : S16x16x80000.Idx → Elt F .f32) (X1 : S16x8x80000.Idx → Elt F .i32) : S16x8x1.Idx → Elt F .f32 :=
  fun i => k0_pay1 (lane (blk0 X0 (i 0 : Fin 16)) (blk1 X1 (i 0 : Fin 16)) 5) (ix3 (0 : Fin 1) (i 1 : Fin 8) (i 2 : Fin 1))

end Cert.KernelIdeal.Spec

end
-- ==== Proof.KernelIdealFinal.lean ====
/-
  The three result arrays of the grid region as functions of the two argument arrays, for every float
  instance. At grid point `t` each input window's block is batch element `t` of its argument; the body
  leaves in each output buffer one stored term of those blocks — for the accumulated block, the chunk term
  folded over the five chunks —; the block is written back to batch row `t` of the result array, and the
  sixteen rows cover it.
-/
import proofs.«130922_j41437844472370_2_alg».proof.Proof.KernelIdealFrame
import proofs.«130922_j41437844472370_2_alg».proof.Proof.KernelIdealSpec
import Idealize.ShloMosaic.Lib.Pipeline.Value
import Idealize.ShloMosaic.Lib.ValueIdx
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-block access, as the constant function. -/
theorem hz3 : (![0, 0, 0] : Fin 3 → Nat) = fun _ => 0 := funext fun a => by fin_cases a <;> rfl

/-- The centroids' buffer ends holding the one stored term of the two input blocks. -/
theorem piece2 (c : Dev nD) (i : grid0.Coords) (a1 : Memref sig .tc .vmem S1x16x80000 .f32) (h1 : a1.IsWhole) (a2 : Memref sig .tc .vmem S1x8x80000 .i32) (h2 : a2.IsWhole) (a3 : Memref sig .tc .vmem S1x8x16 .f32) (h3 : a3.IsWhole) (a4 : Memref sig .tc .vmem S1x8x1 .f32) (h4 : a4.IsWhole) (a5 : Memref sig .tc .vmem S1x8x1 .f32) (h5 : a5.IsWhole) (x0 : Vec F S1x16x80000 .f32) (x1 : Vec F S1x8x80000 .i32) :
    out0_A_2 c i a1 h1 a2 h2 a3 h3 a4 h4 a5 h5 x0 x1 = k0_pay5 x0 x1 := by
  unfold out0_A_2
  rw [View.read_writes_eq_canon _ _ _ (cover0_A_2 c i a1 h1 a2 h2 a3 h3 a4 h4 a5 h5 x0 x1)]
  unfold kernelRun0_A
  dsimp only
  sl_unfold_words
  rw [View.canon_unit_zero hz3]
  simp only [View.readAt_eq_ld, h1.read_unread, h2.read_unread, View.ld_unit_zero (S := S1x16x80000) hz3, View.ld_unit_zero (S := S1x8x80000) hz3]

/-- The counts' buffer ends holding the one stored term of the label block. -/
theorem piece3 (c : Dev nD) (i : grid0.Coords) (a1 : Memref sig .tc .vmem S1x16x80000 .f32) (h1 : a1.IsWhole) (a2 : Memref sig .tc .vmem S1x8x80000 .i32) (h2 : a2.IsWhole) (a3 : Memref sig .tc .vmem S1x8x16 .f32) (h3 : a3.IsWhole) (a4 : Memref sig .tc .vmem S1x8x1 .f32) (h4 : a4.IsWhole) (a5 : Memref sig .tc .vmem S1x8x1 .f32) (h5 : a5.IsWhole) (x0 : Vec F S1x16x80000 .f32) (x1 : Vec F S1x8x80000 .i32) :
    out0_A_3 c i a1 h1 a2 h2 a3 h3 a4 h4 a5 h5 x0 x1 = k0_pay6 x1 := by
  unfold out0_A_3
  rw [View.read_writes_eq_canon _ _ _ (cover0_A_3 c i a1 h1 a2 h2 a3 h3 a4 h4 a5 h5 x0 x1)]
  unfold kernelRun0_A
  dsimp only
  sl_unfold_run_names
  rw [View.canon_unit_zero hz3]
  simp only [View.readAt_eq_ld, h1.read_unread, h2.read_unread, View.ld_unit_zero (S := S1x16x80000) hz3, View.ld_unit_zero (S := S1x8x80000) hz3]

/-- Every window's block index at grid point `t` is `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The first input's block at point `t` is batch element `t` of the embedding array. -/
theorem iblk0_eq (c : Dev nD) (t : Fin cfg0.N) (b : Fin 16) (hb : b.val = t.val) :
    (iblk m c 0 t : Vec F S1x16x80000 .f32) = Spec.blk0 (m ((c.tc : Thread nD τ).loc main_arg0)) b := by
  obtain ⟨⟨e0, e1, e2⟩, -⟩ := idx_facts t
  funext j
  unfold iblk Spec.blk0
  rw [View.read_apply]
  show V m c main_arg0 _ = m (c.tc.loc main_arg0) _
  unfold V
  congr 1
  funext a
  apply Fin.ext
  have h0 : (j 0).val < 1 := (j 0).isLt
  match a with
  | ⟨0, _⟩ => show win0_0.index t 0 * 1 + 1 * (j 0).val = b.val; rw [e0, hb]; omega
  | ⟨1, _⟩ => show win0_0.index t 1 * 16 + 1 * (j 1).val = (j 1).val; rw [e1]; omega
  | ⟨2, _⟩ => show win0_0.index t 2 * 80000 + 1 * (j 2).val = (j 2).val; rw [e2]; omega

/-- The second input's block at point `t` is batch element `t` of the label array. -/
theorem iblk1_eq (c : Dev nD) (t : Fin cfg0.N) (b : Fin 16) (hb : b.val = t.val) :
    (iblk m c 1 t : Vec F S1x8x80000 .i32) = Spec.blk1 (m ((c.tc : Thread nD τ).loc main_arg1)) b := by
  obtain ⟨-, ⟨e0, e1, e2⟩, -⟩ := idx_facts t
  funext j
  unfold iblk Spec.blk1
  rw [View.read_apply]
  show V m c main_arg1 _ = m (c.tc.loc main_arg1) _
  unfold V
  congr 1
  funext a
  apply Fin.ext
  have h0 : (j 0).val < 1 := (j 0).isLt
  match a with
  | ⟨0, _⟩ => show win0_1.index t 0 * 1 + 1 * (j 0).val = b.val; rw [e0, hb]; omega
  | ⟨1, _⟩ => show win0_1.index t 1 * 8 + 1 * (j 1).val = (j 1).val; rw [e1]; omega
  | ⟨2, _⟩ => show win0_1.index t 2 * 80000 + 1 * (j 2).val = (j 2).val; rw [e2]; omega

/-- The centroids' array at an index of batch row `b` is the stored term of batch element `b`, at the index's block coordinates. -/
theorem G2_at (X0 : S16x16x80000.Idx → Elt F .f32) (X1 : S16x8x80000.Idx → Elt F .i32) (b : Fin 16) (y : S1x8x16.Idx) (i : S16x8x16.Idx)
    (h0 : (i 0).val = b.val) (h1 : (i 1).val = (y 1).val) (h2 : (i 2).val = (y 2).val) :
    k0_pay5 (Spec.blk0 X0 b) (Spec.blk1 X1 b) y = Spec.G2 X0 X1 i := by
  unfold Spec.G2
  have hb : (i 0 : Fin 16) = b := Fin.ext h0
  rw [hb]
  congr 1
  funext a
  apply Fin.ext
  have hy : (y 0).val < 1 := (y 0).isLt
  match a with
  | ⟨0, _⟩ => show (y 0).val = 0; omega
  | ⟨1, _⟩ => exact h1.symm
  | ⟨2, _⟩ => exact h2.symm

/-- The counts' array at an index of batch row `b` is the stored term of batch element `b`, at the index's block coordinates. -/
theorem G3_at (X1 : S16x8x80000.Idx → Elt F .i32) (b : Fin 16) (y : S1x8x1.Idx) (i : S16x8x1.Idx)
    (h0 : (i 0).val = b.val) (h1 : (i 1).val = (y 1).val) (h2 : (i 2).val = (y 2).val) :
    k0_pay6 (Spec.blk1 X1 b) y = Spec.G3 X1 i := by
  unfold Spec.G3
  have hb : (i 0 : Fin 16) = b := Fin.ext h0
  rw [hb]
  congr 1
  funext a
  apply Fin.ext
  have hy : (y 0).val < 1 := (y 0).isLt
  match a with
  | ⟨0, _⟩ => show (y 0).val = 0; omega
  | ⟨1, _⟩ => exact h1.symm
  | ⟨2, _⟩ => exact h2.symm

/-- A grid point as a batch row. -/
theorem point_lt (t : Fin cfg0.N) : t.val < 16 := Nat.lt_of_lt_of_eq t.isLt N_0

/-- What point `t` writes back to the centroids' array is block `t` of `G2` of the argument arrays. -/
theorem flushed2_eq (c : Dev nD) (t : Fin cfg0.N) :
    (dats m 0 c).flushed 2 t = ((cfg0.win 2).blk t).view.read (Elt F)
      (Spec.G2 (m ((c.tc : Thread nD τ).loc main_arg0)) (m ((c.tc : Thread nD τ).loc main_arg1))) := by
  show (cfg0.win 2).cut (grid0.coords t) ((dats m 0 c).after 2 t) = _
  rw [after0_2, piece2, iblk0_eq m c t ⟨t.val, point_lt t⟩ rfl, iblk1_eq m c t ⟨t.val, point_lt t⟩ rfl]
  obtain ⟨-, -, ⟨e0, e1, e2⟩, -⟩ := idx_facts t
  funext y
  rw [View.read_apply]
  have hy : (y 0).val < 1 := (y 0).isLt
  refine G2_at _ _ _ _ _ ?_ ?_ ?_
  · show win0_2.index t 0 * 1 + 1 * (y 0).val = t.val; rw [e0]; omega
  · show win0_2.index t 1 * 8 + 1 * (y 1).val = (y 1).val; rw [e1]; omega
  · show win0_2.index t 2 * 16 + 1 * (y 2).val = (y 2).val; rw [e2]; omega

/-- An index of the centroids' array of batch row `t` is in point `t`'s block. -/
theorem mem_blk2 (t : Fin cfg0.N) (i : S16x8x16.Idx) (h : (i 0).val = t.val) : i ∈ ((cfg0.win 2).blk t).view.set := by
  have hi1 : (i 1).val < 8 := (i 1).isLt
  have hi2 : (i 2).val < 16 := (i 2).isLt
  obtain ⟨-, -, ⟨e0, e1, e2⟩, -⟩ := idx_facts t
  show i ∈ ((View.whole main_v0_0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 8 ≤ (i 1).val ∧ (i 1).val < win0_2.index t 1 * 8 + 8; rw [e1]; omega
  | ⟨2, _⟩ => show win0_2.index t 2 * 16 ≤ (i 2).val ∧ (i 2).val < win0_2.index t 2 * 16 + 16; rw [e2]; omega

/-- Every index of the centroids' array is in the block of the point of its batch row. -/
theorem cover2 (i : S16x8x16.Idx) : ∃ t : Fin cfg0.N, (cfg0.win 2).flush t = true ∧ i ∈ ((cfg0.win 2).blk t).view.set :=
  ⟨⟨(i 0).val, Nat.lt_of_lt_of_eq (i 0).isLt N_0.symm⟩, flush0_2 _, mem_blk2 _ i rfl⟩

/-- The centroids' array after the region. -/
theorem final2 (c : Dev nD) : (dats m 0 c).arrAt 2 cfg0.N = Cert.KernelIdeal.Spec.G2 (m ((c.tc : Thread nD τ).loc main_arg0)) (m ((c.tc : Thread nD τ).loc main_arg1)) :=
  (dats m 0 c).arrAt_eq_of_cover 2 _ (fun t _ => flushed2_eq m c t) cover2

/-- What point `t` writes back to the counts' array is block `t` of `G3` of the label array. -/
theorem flushed3_eq (c : Dev nD) (t : Fin cfg0.N) :
    (dats m 0 c).flushed 3 t = ((cfg0.win 3).blk t).view.read (Elt F)
      (Spec.G3 (m ((c.tc : Thread nD τ).loc main_arg1))) := by
  show (cfg0.win 3).cut (grid0.coords t) ((dats m 0 c).after 3 t) = _
  rw [after0_3, piece3, iblk1_eq m c t ⟨t.val, point_lt t⟩ rfl]
  obtain ⟨-, -, -, ⟨e0, e1, e2⟩, -⟩ := idx_facts t
  funext y
  rw [View.read_apply]
  have hy : (y 0).val < 1 := (y 0).isLt
  refine G3_at _ _ _ _ ?_ ?_ ?_
  · show win0_3.index t 0 * 1 + 1 * (y 0).val = t.val; rw [e0]; omega
  · show win0_3.index t 1 * 8 + 1 * (y 1).val = (y 1).val; rw [e1]; omega
  · show win0_3.index t 2 * 1 + 1 * (y 2).val = (y 2).val; rw [e2]; omega

/-- An index of the counts' array of batch row `t` is in point `t`'s block. -/
theorem mem_blk3 (t : Fin cfg0.N) (i : S16x8x1.Idx) (h : (i 0).val = t.val) : i ∈ ((cfg0.win 3).blk t).view.set := by
  have hi1 : (i 1).val < 8 := (i 1).isLt
  have hi2 : (i 2).val < 1 := (i 2).isLt
  obtain ⟨-, -, -, ⟨e0, e1, e2⟩, -⟩ := idx_facts t
  show i ∈ ((View.whole main_v0_1).slice (win0_3.rect t)).set
  rw [View.set_slice_whole, Rect.mem_set_unit]
  intro a
  match a with
  | ⟨0, _⟩ => show win0_3.index t 0 * 1 ≤ (i 0).val ∧ (i 0).val < win0_3.index t 0 * 1 + 1; rw [e0]; omega
  | ⟨1, _⟩ => show win0_3.index t 1 * 8 ≤ (i 1).val ∧ (i 1).val < win0_3.index t 1 * 8 + 8; rw [e1]; omega
  | ⟨2, _⟩ => show win0_3.index t 2 * 1 ≤ (i 2).val ∧ (i 2).val < win0_3.index t 2 * 1 + 1; rw [e2]; omega

/-- Every index of the counts' array is in the block of the point of its batch row. -/
theorem cover3 (i : S16x8x1.Idx) : ∃ t : Fin cfg0.N, (cfg0.win 3).flush t = true ∧ i ∈ ((cfg0.win 3).blk t).view.set :=
  ⟨⟨(i 0).val, Nat.lt_of_lt_of_eq (i 0).isLt N_0.symm⟩, flush0_3 _, mem_blk3 _ i rfl⟩

/-- The counts' array after the region. -/
theorem final3 (c : Dev nD) : (dats m 0 c).arrAt 3 cfg0.N = Cert.KernelIdeal.Spec.G3 (m ((c.tc : Thread nD τ).loc main_arg1)) :=
  (dats m 0 c).arrAt_eq_of_cover 3 _ (fun t _ => flushed3_eq m c t) cover3

/-- The loop runs its five trips. -/
theorem trips_eq : k0_t1_loop.trips = 5 := by decide +kernel

/-- Trip `k`'s load of the embedding block reads chunk `k`: columns `16000 k …`. -/
theorem chunk0_load (x0 : Vec F S1x16x80000 .f32) (k : Fin k0_t1_loop.trips) (hk : k.val < 5) :
    View.ld x0 (Rect.unit (s := S1x16x80000) (k0_off1 k) S1x16x16000.size (k0_off1_inb k)) = Spec.chunk0 x0 ⟨k.val, hk⟩ := by
  funext j
  unfold Spec.chunk0
  show x0 _ = x0 _
  congr 1
  funext a
  apply Fin.ext
  have h0 : (j 0).val < 1 := (j 0).isLt
  have o0 : k0_off1 k 0 = 0 := congrFun (k0_off1_eq k) 0
  have o1 : k0_off1 k 1 = 0 := congrFun (k0_off1_eq k) 1
  have o2 : k0_off1 k 2 = 16000 * k.val := congrFun (k0_off1_eq k) 2
  match a with
  | ⟨0, _⟩ => show k0_off1 k 0 + 1 * (j 0).val = 0; omega
  | ⟨1, _⟩ => show k0_off1 k 1 + 1 * (j 1).val = (j 1).val; omega
  | ⟨2, _⟩ => show k0_off1 k 2 + 1 * (j 2).val = 16000 * k.val + (j 2).val; omega

/-- Trip `k`'s load of the label block reads chunk `k`. -/
theorem chunk1_load (x1 : Vec F S1x8x80000 .i32) (k : Fin k0_t1_loop.trips) (hk : k.val < 5) :
    View.ld x1 (Rect.unit (s := S1x8x80000) (k0_off2 k) S1x8x16000.size (k0_off2_inb k)) = Spec.chunk1 x1 ⟨k.val, hk⟩ := by
  funext j
  unfold Spec.chunk1
  show x1 _ = x1 _
  congr 1
  funext a
  apply Fin.ext
  have h0 : (j 0).val < 1 := (j 0).isLt
  have o0 : k0_off2 k 0 = 0 := congrFun (k0_off2_eq k) 0
  have o1 : k0_off2 k 1 = 0 := congrFun (k0_off2_eq k) 1
  have o2 : k0_off2 k 2 = 16000 * k.val := congrFun (k0_off2_eq k) 2
  match a with
  | ⟨0, _⟩ => show k0_off2 k 0 + 1 * (j 0).val = 0; omega
  | ⟨1, _⟩ => show k0_off2 k 1 + 1 * (j 1).val = (j 1).val; omega
  | ⟨2, _⟩ => show k0_off2 k 2 + 1 * (j 2).val = 16000 * k.val + (j 2).val; omega

/-- One trip of the loop over buffers holding the blocks `x0`, `x1`: the chunk term of chunk `k` added to the carried column. -/
theorem trip_eq (c : Dev nD) (i : grid0.Coords) (a1 : Memref sig .tc .vmem S1x16x80000 .f32) (h1 : a1.IsWhole) (a2 : Memref sig .tc .vmem S1x8x80000 .i32) (h2 : a2.IsWhole) (a3 : Memref sig .tc .vmem S1x8x16 .f32) (h3 : a3.IsWhole) (a4 : Memref sig .tc .vmem S1x8x1 .f32) (h4 : a4.IsWhole) (a5 : Memref sig .tc .vmem S1x8x1 .f32) (h5 : a5.IsWhole) (x0 : Vec F S1x16x80000 .f32) (x1 : Vec F S1x8x80000 .i32) (k : Fin k0_t1_loop.trips) (hk : k.val < 5) (acc : FVec F S8x1 .f32) :
    tripR_k0_t1 Variants.none c none i a1 h1 a2 h2 a3 h3 a4 h4 a5 h5 x0 x1 (h1.unread x0) (h2.unread x1) k acc
      = k0_pay8 x0 x1 acc (Spec.chunk0 x0 ⟨k.val, hk⟩) (Spec.chunk1 x1 ⟨k.val, hk⟩) := by
  have e0 : View.readAt (Elt F) a1.view (Rect.unit (s := S1x16x80000) (k0_off1 k) S1x16x16000.size (k0_off1_inb k)).toLoadRect (h1.unread x0) = Spec.chunk0 x0 ⟨k.val, hk⟩ := by
    rw [View.readAt_eq_ld, h1.read_unread]; exact chunk0_load x0 k hk
  have e1 : View.readAt (Elt F) a2.view (Rect.unit (s := S1x8x80000) (k0_off2 k) S1x8x16000.size (k0_off2_inb k)).toLoadRect (h2.unread x1) = Spec.chunk1 x1 ⟨k.val, hk⟩ := by
    rw [View.readAt_eq_ld, h2.read_unread]; exact chunk1_load x1 k hk
  unfold tripR_k0_t1 trip_k0_t1
  exact congrArg₂ (k0_pay8 x0 x1 acc) e0 e1

/-- The carried column before trip `n` is the fold of the chunk terms over the first `n` chunks. -/
theorem lane_eq (c : Dev nD) (i : grid0.Coords) (a1 : Memref sig .tc .vmem S1x16x80000 .f32) (h1 : a1.IsWhole) (a2 : Memref sig .tc .vmem S1x8x80000 .i32) (h2 : a2.IsWhole) (a3 : Memref sig .tc .vmem S1x8x16 .f32) (h3 : a3.IsWhole) (a4 : Memref sig .tc .vmem S1x8x1 .f32) (h4 : a4.IsWhole) (a5 : Memref sig .tc .vmem S1x8x1 .f32) (h5 : a5.IsWhole) (x0 : Vec F S1x16x80000 .f32) (x1 : Vec F S1x8x80000 .i32) : ∀ n : ℕ, n ≤ 5 →
    st_k0_t1 Variants.none c none i a1 h1 a2 h2 a3 h3 a4 h4 a5 h5 x0 x1 (h1.unread x0) (h2.unread x1) k0_pay7 n = Spec.lane x0 x1 n
  | 0, _ => rfl
  | n + 1, hn => by
    have hlt : n < 5 := by omega
    have htr : n < k0_t1_loop.trips := by rw [trips_eq]; exact hlt
    refine (st_k0_t1_succ Variants.none c none i a1 h1 a2 h2 a3 h3 a4 h4 a5 h5 x0 x1 (h1.unread x0) (h2.unread x1) k0_pay7 ⟨n, htr⟩).trans ?_
    rw [trip_eq c i a1 h1 a2 h2 a3 h3 a4 h4 a5 h5 x0 x1 ⟨n, htr⟩ hlt, Spec.lane.eq_2, dif_pos hlt, ← lane_eq c i a1 h1 a2 h2 a3 h3 a4 h4 a5 h5 x0 x1 n (by omega)]

/-- The accumulated buffer ends holding the stored term of the fold over the five chunks. -/
theorem piece4 (c : Dev nD) (i : grid0.Coords) (a1 : Memref sig .tc .vmem S1x16x80000 .f32) (h1 : a1.IsWhole) (a2 : Memref sig .tc .vmem S1x8x80000 .i32) (h2 : a2.IsWhole) (a3 : Memref sig .tc .vmem S1x8x16 .f32) (h3 : a3.IsWhole) (a4 : Memref sig .tc .vmem S1x8x1 .f32) (h4 : a4.IsWhole) (a5 : Memref sig .tc .vmem S1x8x1 .f32) (h5 : a5.IsWhole) (x0 : Vec F S1x16x80000 .f32) (x1 : Vec F S1x8x80000 .i32) :
    out0_A_4 c i a1 h1 a2 h2 a3 h3 a4 h4 a5 h5 x0 x1 = k0_pay1 (Spec.lane x0 x1 5) := by
  unfold out0_A_4
  rw [View.read_writes_eq_canon _ _ _ (cover0_A_4 c i a1 h1 a2 h2 a3 h3 a4 h4 a5 h5 x0 x1)]
  unfold kernelRun0_A
  dsimp only
  sl_unfold_run_names
  rw [View.canon_unit_zero hz3]
  simp only [View.readAt_eq_ld, h1.read_unread, h2.read_unread, View.ld_unit_zero (S := S1x16x80000) hz3, View.ld_unit_zero (S := S1x8x80000) hz3]
  rw [show Scf.trips (0#32) (Scalar.addi 0#32 5#32) 1#32 = 5 from trips_eq, lane_eq c i a1 h1 a2 h2 a3 h3 a4 h4 a5 h5 x0 x1 5 (le_refl _)]

/-- The accumulated array at an index of batch row `b` is the stored term of batch element `b`'s fold, at the index's block coordinates. -/
theorem G4_at (X0 : S16x16x80000.Idx → Elt F .f32) (X1 : S16x8x80000.Idx → Elt F .i32) (b : Fin 16) (y : S1x8x1.Idx) (i : S16x8x1.Idx)
    (h0 : (i 0).val = b.val) (h1 : (i 1).val = (y 1).val) (h2 : (i 2).val = (y 2).val) :
    k0_pay1 (Spec.lane (Spec.blk0 X0 b) (Spec.blk1 X1 b) 5) y = Spec.G4 X0 X1 i := by
  unfold Spec.G4
  have hb : (i 0 : Fin 16) = b := Fin.ext h0
  rw [hb]
  congr 1
  funext a
  apply Fin.ext
  have hy : (y 0).val < 1 := (y 0).isLt
  match a with
  | ⟨0, _⟩ => show (y 0).val = 0; omega
  | ⟨1, _⟩ => exact h1.symm
  | ⟨2, _⟩ => exact h2.symm

/-- What point `t` writes back to the accumulated array is block `t` of `G4` of the argument arrays. -/
theorem flushed4_eq (c : Dev nD) (t : Fin cfg0.N) :
    (dats m 0 c).flushed 4 t = ((cfg0.win 4).blk t).view.read (Elt F)
      (Spec.G4 (m ((c.tc : Thread nD τ).loc main_arg0)) (m ((c.tc : Thread nD τ).loc main_arg1))) := by
  show (cfg0.win 4).cut (grid0.coords t) ((dats m 0 c).after 4 t) = _
  rw [after0_4, piece4, iblk0_eq m c t ⟨t.val, point_lt t⟩ rfl, iblk1_eq m c t ⟨t.val, point_lt t⟩ rfl]
  obtain ⟨-, -, -, -, ⟨e0, e1, e2⟩⟩ := idx_facts t
  funext y
  rw [View.read_apply]
  have hy : (y 0).val < 1 := (y 0).isLt
  refine G4_at _ _ _ _ _ ?_ ?_ ?_
  · show win0_4.index t 0 * 1 + 1 * (y 0).val = t.val; rw [e0]; omega
  · show win0_4.index t 1 * 8 + 1 * (y 1).val = (y 1).val; rw [e1]; omega
  · show win0_4.index t 2 * 1 + 1 * (y 2).val = (y 2).val; rw [e2]; omega

/-- An index of the accumulated array of batch row `t` is in point `t`'s block. -/
theorem mem_blk4 (t : Fin cfg0.N) (i : S16x8x1.Idx) (h : (i 0).val = t.val) : i ∈ ((cfg0.win 4).blk t).view.set := by
  have hi1 : (i 1).val < 8 := (i 1).isLt
  have hi2 : (i 2).val < 1 := (i 2).isLt
  obtain ⟨-, -, -, -, ⟨e0, e1, e2⟩⟩ := idx_facts t
  show i ∈ ((View.whole main_v0_2).slice (win0_4.rect t)).set
  rw [View.set_slice_whole, Rect.mem_set_unit]
  intro a
  match a with
  | ⟨0, _⟩ => show win0_4.index t 0 * 1 ≤ (i 0).val ∧ (i 0).val < win0_4.index t 0 * 1 + 1; rw [e0]; omega
  | ⟨1, _⟩ => show win0_4.index t 1 * 8 ≤ (i 1).val ∧ (i 1).val < win0_4.index t 1 * 8 + 8; rw [e1]; omega
  | ⟨2, _⟩ => show win0_4.index t 2 * 1 ≤ (i 2).val ∧ (i 2).val < win0_4.index t 2 * 1 + 1; rw [e2]; omega

/-- Every index of the accumulated array is in the block of the point of its batch row. -/
theorem cover4 (i : S16x8x1.Idx) : ∃ t : Fin cfg0.N, (cfg0.win 4).flush t = true ∧ i ∈ ((cfg0.win 4).blk t).view.set :=
  ⟨⟨(i 0).val, Nat.lt_of_lt_of_eq (i 0).isLt N_0.symm⟩, flush0_4 _, mem_blk4 _ i rfl⟩

/-- The accumulated array after the region. -/
theorem final4 (c : Dev nD) : (dats m 0 c).arrAt 4 cfg0.N = Cert.KernelIdeal.Spec.G4 (m ((c.tc : Thread nD τ).loc main_arg0)) (m ((c.tc : Thread nD τ).loc main_arg1)) :=
  (dats m 0 c).arrAt_eq_of_cover 4 _ (fun t _ => flushed4_eq m c t) cover4

end Cert.KernelIdeal.Fr

end
-- ==== Proof.KernelIdealTail.lean ====
/-
  The host operations after the region, read at the ideal instance. They compute the three results from the
  centroids, the counts and the accumulated sums alone; the reference program ends with the same operations
  applied to its own centroids, counts and sums. So once the three arrays agree with the reference's, the three
  results are the reference's results.
-/
import proofs.«130922_j41437844472370_2_alg».proof.Proof.KernelIdealFrame
import proofs.«130922_j41437844472370_2_alg».proof.Proof.RefReadP
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen Cert.KernelIdeal.Fr

set_option maxRecDepth 200000 in
/-- The first result: the mean, over the lanes that occur, of each lane's accumulated sum divided by its count.
    It reads the counts' and the accumulated array only. -/
theorem tail_var (W : Valuation τ sig (Elt Ideal))
    (X0 : (⟨S16x16x80000, .f32⟩ : BufTy).Contents (Elt Ideal)) (X1 : (⟨S16x8x80000, .i32⟩ : BufTy).Contents (Elt Ideal))
    (h3 : (fun i => shapeCast S16x8 (W (Proc.devRef .tc main_v0_1)) shapeCasts_S16x8x1_S16x8 i) = Cert.ReferenceIdeal.ReadP.val_main_v3 (F := Ideal) X1)
    (h4 : (fun i => shapeCast S16x8 (W (Proc.devRef .tc main_v0_2)) shapeCasts_S16x8x1_S16x8 i) = Cert.ReferenceIdeal.ReadP.val_main_v37 (F := Ideal) X0 X1) :
    StableHlo.after (List.flatten (tailOps (F := Ideal))) W (Proc.devRef .tc main_v11)
      = Cert.ReferenceIdeal.ReadP.val_main_v42 (F := Ideal) X0 X1 := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  have e3 : (fun i => shapeCast main_v1.ty.shape (W (Proc.devRef .tc main_v0_1)) shapeCasts_S16x8x1_S16x8 i) = Cert.ReferenceIdeal.ReadP.val_main_v3 (F := Ideal) X1 := h3
  have e4 : (fun i => shapeCast main_v2.ty.shape (W (Proc.devRef .tc main_v0_2)) shapeCasts_S16x8x1_S16x8 i) = Cert.ReferenceIdeal.ReadP.val_main_v37 (F := Ideal) X0 X1 := h4
  rw [e3, e4]
  rfl

set_option maxRecDepth 200000 in
/-- The second result: the hinge on the pairwise distances of the centroids of the lanes that occur. It reads the
    centroids' and the counts' array only. -/
theorem tail_dist (W : Valuation τ sig (Elt Ideal))
    (X0 : (⟨S16x16x80000, .f32⟩ : BufTy).Contents (Elt Ideal)) (X1 : (⟨S16x8x80000, .i32⟩ : BufTy).Contents (Elt Ideal))
    (h2 : W (Proc.devRef .tc main_v0_0) = Cert.ReferenceIdeal.ReadP.val_main_v11 (F := Ideal) X0 X1)
    (h3 : (fun i => shapeCast S16x8 (W (Proc.devRef .tc main_v0_1)) shapeCasts_S16x8x1_S16x8 i) = Cert.ReferenceIdeal.ReadP.val_main_v3 (F := Ideal) X1) :
    StableHlo.after (List.flatten (tailOps (F := Ideal))) W (Proc.devRef .tc main_v62)
      = Cert.ReferenceIdeal.ReadP.val_main_v93 (F := Ideal) X0 X1 := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  have e3 : (fun i => shapeCast main_v1.ty.shape (W (Proc.devRef .tc main_v0_1)) shapeCasts_S16x8x1_S16x8 i) = Cert.ReferenceIdeal.ReadP.val_main_v3 (F := Ideal) X1 := h3
  rw [h2, e3]
  rfl

/-- The third result is the constant zero. -/
theorem tail_reg (W : Valuation τ sig (Elt Ideal)) :
    StableHlo.after (List.flatten (tailOps (F := Ideal))) W (Proc.devRef .tc main_cst_20)
      = (constant (F := Ideal) S_ .f32 0x00000000#32 : (⟨S_, .f32⟩ : BufTy).Contents (Elt Ideal)) := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp

end Cert.KernelIdeal.Tail

end
-- ==== Proof.KernelIdealPay.lean ====
/-
  The kernel body's stored terms read at an index, at the ideal instance: a label word's mask, a lane's count
  (the sum of its masks), a centroid's coordinate (the masked sum of the pixels' coordinate over the count taken as
  at least one), and one chunk's contribution to a lane's accumulated sum (the chunk's sum of mask times pull term).
  A change of float format is the identity here and a matrix product into a zero accumulator is a plain sum.
-/
import proofs.«130922_j41437844472370_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Idealize.ShloMosaic Idealize.ShloMosaic.ValueIdx Cert.KernelIdeal Cert.KernelIdeal.Gen

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mask of one label word as the kernel computes it: the word is positive, widened, read as a signed integer. -/
def mskK (w : BitVec 32) : EReal := FloatOps.sitofp (F := Ideal) .f32 ((IntOp.cmpi .sgt w 0#32).setWidth 32)

/-- One pixel's pull term from its squared norm `e`, its inner product `c` with the centroid and the centroid's
    squared norm `q`: with `d2 = max (e - 2 c + q) 0`, the distance is `√d2` where `d2 > 0` and `0` elsewhere, and the
    term is the square of `max (distance - 1/2) 0`. -/
def pullS (e c q : EReal) : EReal :=
  (max (Scalar.select (Ideal.cmp .ogt (max (e - Ideal.ofBits .f32 0x40000000#32 * c + q) (Ideal.ofBits .f32 0x00000000#32)) (Ideal.ofBits .f32 0x00000000#32))
        (Ideal.sqrt (Scalar.select (Ideal.cmp .ogt (max (e - Ideal.ofBits .f32 0x40000000#32 * c + q) (Ideal.ofBits .f32 0x00000000#32)) (Ideal.ofBits .f32 0x00000000#32))
          (max (e - Ideal.ofBits .f32 0x40000000#32 * c + q) (Ideal.ofBits .f32 0x00000000#32)) (Ideal.ofBits .f32 0x3F800000#32)))
        (Ideal.ofBits .f32 0x00000000#32) - Ideal.ofBits .f32 0x3F000000#32) (Ideal.ofBits .f32 0x00000000#32))
  * (max (Scalar.select (Ideal.cmp .ogt (max (e - Ideal.ofBits .f32 0x40000000#32 * c + q) (Ideal.ofBits .f32 0x00000000#32)) (Ideal.ofBits .f32 0x00000000#32))
        (Ideal.sqrt (Scalar.select (Ideal.cmp .ogt (max (e - Ideal.ofBits .f32 0x40000000#32 * c + q) (Ideal.ofBits .f32 0x00000000#32)) (Ideal.ofBits .f32 0x00000000#32))
          (max (e - Ideal.ofBits .f32 0x40000000#32 * c + q) (Ideal.ofBits .f32 0x00000000#32)) (Ideal.ofBits .f32 0x3F800000#32)))
        (Ideal.ofBits .f32 0x00000000#32) - Ideal.ofBits .f32 0x3F000000#32) (Ideal.ofBits .f32 0x00000000#32))

theorem pay2_apply (v2 : Vec Ideal S1x8x80000 .i32) (l : Fin 8) (n : Fin 80000) :
    k0_pay2 (F := Ideal) v2 (ix2 l n) = mskK (v2 (ix3 (0 : Fin 1) l n)) := by
  unfold k0_pay2 mskK
  show FloatOps.sitofp (F := Ideal) .f32 ((IntOp.cmpi .sgt (shapeCast S8x80000 v2 shapeCasts_S1x8x80000_S8x80000 (ix2 l n)) 0#32).setWidth 32) = _
  rw [shapeCast_1ab_ab_apply]

/-- The count of lane `l`: the sum of its masks over the pixels. -/
theorem pay3_apply (v2 : Vec Ideal S1x8x80000 .i32) (l : Fin 8) :
    k0_pay3 (F := Ideal) v2 (ix2 l (0 : Fin 1)) = ∑ n : Fin 80000, mskK (v2 (ix3 (0 : Fin 1) l n)) := by
  unfold k0_pay3
  refine (shapeCast_a_a1_apply _ _ l 0).trans ?_
  refine (Ideal.multiReduction_add_single _ _ _ _ _ (ix1 l)).trans ?_
  refine Finset.sum_congr rfl fun (n : Fin 80000) _ => ?_
  refine Eq.trans ?_ (pay2_apply v2 l n)
  exact congrArg _ (funext fun a => by match a with | ⟨0, _⟩ => rfl | ⟨1, _⟩ => rfl)

abbrev D1 := dot_S8x80000_S16x80000_S8x16_1_1_0_0_n_n
abbrev D2 := dot_S8x16_S16x16000_S8x16000_1_0_0_1_n_n

theorem lhs1_0 (i : S8x16.Idx) (q : D1.contr.Idx) : (D1.lhsIdx i q 0).val = (i 0).val := by
  unfold DotDims.lhsIdx
  rw [dif_neg (show ¬(0 : Fin S8x80000.rank) ∈ D1.lhsBatch by decide), dif_pos (show (0 : Fin S8x80000.rank) ∈ D1.lhsNonContracting by decide)]
  rfl
theorem lhs1_1 (i : S8x16.Idx) (q : D1.contr.Idx) : (D1.lhsIdx i q 1).val = (q ⟨0, by decide⟩).val :=
  D1.lhsIdx_val_of_single rfl i q
theorem rhs1_0 (i : S8x16.Idx) (q : D1.contr.Idx) : (D1.rhsIdx i q 0).val = (i 1).val := by
  unfold DotDims.rhsIdx
  rw [dif_neg (show ¬(0 : Fin S16x80000.rank) ∈ D1.rhsBatch by decide), dif_pos (show (0 : Fin S16x80000.rank) ∈ D1.rhsNonContracting by decide)]
  rfl
theorem rhs1_1 (i : S8x16.Idx) (q : D1.contr.Idx) : (D1.rhsIdx i q 1).val = (q ⟨0, by decide⟩).val :=
  D1.rhsIdx_val_of_single rfl i q

/-- The centroid of lane `l`, coordinate `d`: the masked sum of the pixels' coordinate over the count, the count
    taken as at least one. -/
theorem pay4_apply (v0 : Vec Ideal S1x16x80000 .f32) (v2 : Vec Ideal S1x8x80000 .i32) (l : Fin 8) (d : Fin 16) :
    k0_pay4 (F := Ideal) v0 v2 (ix2 l d)
      = Ideal.div (∑ n : Fin 80000, mskK (v2 (ix3 (0 : Fin 1) l n)) * v0 (ix3 (0 : Fin 1) d n))
          (max (∑ n : Fin 80000, mskK (v2 (ix3 (0 : Fin 1) l n))) (Ideal.ofBits .f32 0x3F800000#32)) := by
  unfold k0_pay4
  try dsimp only
  refine (divf_apply _ _ _).trans ?_
  refine congrArg₂ Ideal.div ?_ ?_
  · refine (Ideal.matmul_constant_zero_apply D1 none _ _ (ix2 l d)).trans ?_
    rw [← Equiv.sum_comp (contrEquiv1 D1 80000 rfl rfl).symm]
    refine Finset.sum_congr rfl fun k _ => ?_
    have hk := contrEquiv1_symm_val D1 80000 rfl rfl k
    have el : D1.lhsIdx (ix2 l d) ((contrEquiv1 D1 80000 rfl rfl).symm k) = ix2 l k := funext fun a => Fin.ext (by
      match a with
      | ⟨0, _⟩ => exact lhs1_0 _ _
      | ⟨1, _⟩ => exact (lhs1_1 _ _).trans hk)
    have er : D1.rhsIdx (ix2 l d) ((contrEquiv1 D1 80000 rfl rfl).symm k) = ix2 d k := funext fun a => Fin.ext (by
      match a with
      | ⟨0, _⟩ => exact rhs1_0 _ _
      | ⟨1, _⟩ => exact (rhs1_1 _ _).trans hk)
    rw [el, er]
    show k0_pay2 v2 (ix2 l k) * shapeCast S16x80000 v0 shapeCasts_S1x16x80000_S16x80000 (ix2 d k) = _
    rw [pay2_apply, shapeCast_1ab_ab_apply]
  · refine (broadcastTo_a1_ab_apply _ _ l d).trans ?_
    show max (k0_pay3 v2 (ix2 l (0 : Fin 1))) (Ideal.ofBits .f32 0x3F800000#32) = _
    rw [pay3_apply]

theorem lhs2_0 (i : S8x16000.Idx) (q : D2.contr.Idx) : (D2.lhsIdx i q 0).val = (i 0).val := by
  unfold DotDims.lhsIdx
  rw [dif_neg (show ¬(0 : Fin S8x16.rank) ∈ D2.lhsBatch by decide), dif_pos (show (0 : Fin S8x16.rank) ∈ D2.lhsNonContracting by decide)]
  rfl
theorem lhs2_1 (i : S8x16000.Idx) (q : D2.contr.Idx) : (D2.lhsIdx i q 1).val = (q ⟨0, by decide⟩).val :=
  D2.lhsIdx_val_of_single rfl i q
theorem rhs2_0 (i : S8x16000.Idx) (q : D2.contr.Idx) : (D2.rhsIdx i q 0).val = (q ⟨0, by decide⟩).val :=
  D2.rhsIdx_val_of_single rfl i q
theorem rhs2_1 (i : S8x16000.Idx) (q : D2.contr.Idx) : (D2.rhsIdx i q 1).val = (i 1).val := by
  unfold DotDims.rhsIdx
  rw [dif_neg (show ¬(1 : Fin S16x16000.rank) ∈ D2.rhsBatch by decide), dif_pos (show (1 : Fin S16x16000.rank) ∈ D2.rhsNonContracting by decide)]
  rfl

set_option maxRecDepth 200000 in
set_option maxHeartbeats 1600000 in
/-- One chunk's contribution to lane `l`: the carried value plus the sum, over the chunk's pixels, of the pixel's
    mask times its pull term — the pull term taken from the pixel's squared norm, its inner product with the
    centroid of lane `l` and that centroid's squared norm. -/
theorem pay8_apply (v0 : Vec Ideal S1x16x80000 .f32) (v2 : Vec Ideal S1x8x80000 .i32) (acc : FVec Ideal S8x1 .f32)
    (v36 : Vec Ideal S1x16x16000 .f32) (v39 : Vec Ideal S1x8x16000 .i32) (l : Fin 8) :
    k0_pay8 (F := Ideal) v0 v2 acc v36 v39 (ix2 l (0 : Fin 1))
      = acc (ix2 l (0 : Fin 1)) + ∑ j : Fin 16000, mskK (v39 (ix3 (0 : Fin 1) l j))
          * pullS (∑ d : Fin 16, v36 (ix3 (0 : Fin 1) d j) * v36 (ix3 (0 : Fin 1) d j))
              (∑ d : Fin 16, k0_pay4 (F := Ideal) v0 v2 (ix2 l d) * v36 (ix3 (0 : Fin 1) d j))
              (∑ d : Fin 16, k0_pay4 (F := Ideal) v0 v2 (ix2 l d) * k0_pay4 (F := Ideal) v0 v2 (ix2 l d)) := by
  unfold k0_pay8
  try dsimp only
  refine (addf_apply _ _ _).trans ?_
  refine congrArg (acc (ix2 l (0 : Fin 1)) + ·) ?_
  refine (shapeCast_a_a1_apply _ _ l 0).trans ?_
  refine (Ideal.multiReduction_add_single _ _ _ _ _ (ix1 l)).trans ?_
  refine Finset.sum_congr rfl fun (j : Fin 16000) _ => ?_
  have hl : (reduces_S8x16000_S8).lift (ix1 l) j = ix2 l j :=
    funext fun a => by match a with | ⟨0, _⟩ => rfl | ⟨1, _⟩ => rfl
  rw [hl]
  refine (mulf_apply _ _ _).trans ?_
  refine congrArg₂ (· * ·) ?_ ?_
  · show FloatOps.sitofp (F := Ideal) .f32 ((IntOp.cmpi .sgt (shapeCast S8x16000 v39 shapeCasts_S1x8x16000_S8x16000 (ix2 l j)) 0#32).setWidth 32) = _
    rw [shapeCast_1ab_ab_apply]
    rfl
  · refine Eq.trans (show _ = pullS _ _ _ from rfl) ?_
    refine congr (congr (congrArg pullS ?_) ?_) ?_
    · refine (broadcastTo_1b_ab_apply _ _ l j).trans ?_
      refine (shapeCast_a_1a_apply _ _ 0 j).trans ?_
      refine (Ideal.multiReduction_add_single _ _ _ _ _ (ix1 j)).trans ?_
      refine Finset.sum_congr rfl fun (d : Fin 16) _ => ?_
      have hd : (reduces_S16x16000_S16000).lift (ix1 j) d = ix2 d j :=
        funext fun a => by match a with | ⟨0, _⟩ => rfl | ⟨1, _⟩ => rfl
      rw [hd]
      refine (mulf_apply _ _ _).trans ?_
      rw [shapeCast_1ab_ab_apply]
    · refine (Ideal.matmul_constant_zero_apply D2 none _ _ (ix2 l j)).trans ?_
      rw [← Equiv.sum_comp (contrEquiv1 D2 16 rfl rfl).symm]
      refine Finset.sum_congr rfl fun k _ => ?_
      have hk := contrEquiv1_symm_val D2 16 rfl rfl k
      have el : D2.lhsIdx (ix2 l j) ((contrEquiv1 D2 16 rfl rfl).symm k) = ix2 l k := funext fun a => Fin.ext (by
        match a with
        | ⟨0, _⟩ => exact lhs2_0 _ _
        | ⟨1, _⟩ => exact (lhs2_1 _ _).trans hk)
      have er : D2.rhsIdx (ix2 l j) ((contrEquiv1 D2 16 rfl rfl).symm k) = ix2 k j := funext fun a => Fin.ext (by
        match a with
        | ⟨0, _⟩ => exact (rhs2_0 _ _).trans hk
        | ⟨1, _⟩ => exact rhs2_1 _ _)
      rw [el, er]
      show k0_pay4 (F := Ideal) v0 v2 (ix2 l k) * shapeCast S16x16000 v36 shapeCasts_S1x16x16000_S16x16000 (ix2 k j) = _
      rw [shapeCast_1ab_ab_apply]
    · refine (broadcastTo_a1_ab_apply _ _ l j).trans ?_
      refine (shapeCast_a_a1_apply _ _ l 0).trans ?_
      refine (Ideal.multiReduction_add_single _ _ _ _ _ (ix1 l)).trans ?_
      refine Finset.sum_congr rfl fun (d : Fin 16) _ => ?_
      have hd : (reduces_S8x16_S8).lift (ix1 l) d = ix2 l d :=
        funext fun a => by match a with | ⟨0, _⟩ => rfl | ⟨1, _⟩ => rfl
      rw [hd]
      exact mulf_apply _ _ _

/-- The carried column starts at zero. -/
theorem pay7_apply (i : S8x1.Idx) : k0_pay7 (F := Ideal) i = 0 := by
  unfold k0_pay7
  show Ideal.ofBits .f32 0x00000000#32 = 0
  exact Ideal.ofBits_zero_f32

end Cert.KernelIdeal.Pay
end
-- ==== Proof.RefAt.lean ====
/-
  The reference program read at an index, at the ideal instance: the mask of a label word, a lane's count, a
  centroid's coordinate, and a pixel's masked pull term, each as a plain expression of the two argument arrays.
-/
import proofs.«130922_j41437844472370_2_alg».proof.Proof.RefReadP
import proofs.«130922_j41437844472370_2_alg».proof.Proof.KernelIdealPay
import Idealize.ShloMosaic.Lib.ValueIdx
import Idealize.ShloMosaic.PureOps.Ideal.Laws

set_option maxRecDepth 16384

noncomputable section

namespace Cert.ReferenceIdeal.RefAt

open Idealize.ShloMosaic Idealize.ShloMosaic.ValueIdx Cert.ReferenceIdeal Cert.ReferenceIdeal.Gen Cert.ReferenceIdeal.ReadP
open Cert.KernelIdeal.Pay (pullS)

abbrev A0 := (⟨S16x16x80000, .f32⟩ : BufTy).Contents (Elt Ideal)
abbrev A1 := (⟨S16x8x80000, .i32⟩ : BufTy).Contents (Elt Ideal)

/-- The mask of one label word as the reference computes it: the word is positive, read as an unsigned integer. -/
def mskR (w : BitVec 32) : EReal := FloatOps.uitofp (F := Ideal) .f32 (IntOp.cmpi .sgt w 0#32)

theorem v2_at (X1 : A1) (i : S16x8x80000.Idx) : val_main_v2 (F := Ideal) X1 i = mskR (X1 i) := by
  rw [val_main_v2_apply, val_main_v1_apply, val_main_v0_apply, val_main_c_apply]
  rfl

/-- A lane's count. -/
theorem v3_at (X1 : A1) (b : Fin 16) (l : Fin 8) :
    val_main_v3 (F := Ideal) X1 (ix2 b l) = Ideal.ofBits .f32 0x00000000#32 + ∑ n : Fin 80000, mskR (X1 (ix3 b l n)) := by
  rw [val_main_v3_apply]
  refine congrArg₂ (· + ·) rfl (Finset.sum_congr rfl fun n _ => ?_)
  rw [v2_at]
  exact congrArg (fun i => mskR (X1 i)) (funext fun a => by match a with | ⟨0, _⟩ => rfl | ⟨1, _⟩ => rfl | ⟨2, _⟩ => rfl)

/-- A centroid's coordinate. -/
theorem v11_at (X0 : A0) (X1 : A1) (b : Fin 16) (l : Fin 8) (d : Fin 16) :
    val_main_v11 (F := Ideal) X0 X1 (ix3 b l d)
      = Ideal.div (∑ n : Fin 80000, mskR (X1 (ix3 b l n)) * X0 (ix3 b d n))
          (max (val_main_v3 (F := Ideal) X1 (ix2 b l)) (Ideal.ofBits .f32 0x3F800000#32)) := by
  rw [val_main_v11_apply, val_main_v8_apply, val_main_v10_apply, val_main_v9_apply, val_main_v7_apply, val_main_v6_apply]
  refine congrArg₂ Ideal.div (Finset.sum_congr rfl fun n _ => ?_) ?_
  · rw [v2_at]
    refine congrArg₂ (· * ·) ?_ ?_
    · exact congrArg (fun i => mskR (X1 i)) (funext fun a => by match a with | ⟨0, _⟩ => rfl | ⟨1, _⟩ => rfl | ⟨2, _⟩ => rfl)
    · exact congrArg X0 (funext fun a => by match a with | ⟨0, _⟩ => rfl | ⟨1, _⟩ => rfl | ⟨2, _⟩ => rfl)
  · refine congrArg₂ max ?_ rfl
    exact congrArg (val_main_v3 (F := Ideal) X1) (funext fun a => by match a with | ⟨0, _⟩ => rfl | ⟨1, _⟩ => rfl)

set_option maxRecDepth 200000 in
/-- A pixel's masked pull term, at any index, over the three stages it is computed from. -/
theorem v36_stage (X0 : A0) (X1 : A1) (i : S16x8x80000.Idx) :
    val_main_v36 (F := Ideal) X0 X1 i
      = mskR (X1 i) * pullS (val_main_v13 (F := Ideal) X0 (idx_main_v17 (idx_main_v20 i))) (val_main_v16 (F := Ideal) X0 X1 i)
          (val_main_v15 (F := Ideal) X0 X1 (idx_main_v22 (idx_main_v23 i))) := by
  rw [val_main_v36_apply, val_main_v35_apply, val_main_v34_apply, val_main_v33_apply, val_main_v31_apply, val_main_v30_apply,
    val_main_v29_apply, val_main_v28_apply, val_main_v26_apply, val_main_v24_apply, val_main_v21_apply, val_main_v19_apply,
    val_main_v20_apply, val_main_v17_apply, val_main_v23_apply, val_main_v22_apply, val_main_v18_apply, val_main_v25_apply,
    val_main_v27_apply, val_main_v32_apply, val_main_call0_v1_apply, val_main_call1_v1_apply, val_main_call2_v0_apply, v2_at]
  simp only [val_main_cst_4_apply, val_main_cst_5_apply, val_main_cst_6_apply, val_main_cst_7_apply, val_main_cst_8_apply,
    val_main_cst_9_apply, val_main_call0_v0_apply, val_main_call1_v0_apply, val_main_call2_cst_apply, Ideal.ofBits_def, Ideal.mulf_def,
    Ideal.subf_def, Ideal.addf_def, Ideal.maximumf_def, Ideal.cmpf_def, Ideal.hostUnary_sqrt_def]
  rfl

/-- A pixel's squared norm. -/
theorem v13_at (X0 : A0) (b : Fin 16) (n : Fin 80000) :
    val_main_v13 (F := Ideal) X0 (ix2 b n) = Ideal.ofBits .f32 0x00000000#32 + ∑ d : Fin 16, X0 (ix3 b d n) * X0 (ix3 b d n) := by
  rw [val_main_v13_apply]
  refine congrArg₂ (· + ·) rfl (Finset.sum_congr rfl fun (d : Fin 16) _ => ?_)
  rw [val_main_v12_apply]
  have e : idx_main_v13 (ix2 b n) d = ix3 b d n := (funext fun a => by match a with | ⟨0, _⟩ => rfl | ⟨1, _⟩ => rfl | ⟨2, _⟩ => rfl)
  rw [e]
  rfl

/-- A centroid's squared norm. -/
theorem v15_at (X0 : A0) (X1 : A1) (b : Fin 16) (l : Fin 8) :
    val_main_v15 (F := Ideal) X0 X1 (ix2 b l) = Ideal.ofBits .f32 0x00000000#32
      + ∑ d : Fin 16, val_main_v11 (F := Ideal) X0 X1 (ix3 b l d) * val_main_v11 (F := Ideal) X0 X1 (ix3 b l d) := by
  rw [val_main_v15_apply]
  refine congrArg₂ (· + ·) rfl (Finset.sum_congr rfl fun (d : Fin 16) _ => ?_)
  rw [val_main_v14_apply]
  have e : idx_main_v15 (ix2 b l) d = ix3 b l d := (funext fun a => by match a with | ⟨0, _⟩ => rfl | ⟨1, _⟩ => rfl | ⟨2, _⟩ => rfl)
  rw [e]
  rfl

/-- A pixel's inner product with a centroid. -/
theorem v16_at (X0 : A0) (X1 : A1) (b : Fin 16) (l : Fin 8) (n : Fin 80000) :
    val_main_v16 (F := Ideal) X0 X1 (ix3 b l n) = ∑ d : Fin 16, val_main_v11 (F := Ideal) X0 X1 (ix3 b l d) * X0 (ix3 b d n) := by
  rw [val_main_v16_apply]
  refine Finset.sum_congr rfl fun (d : Fin 16) _ => ?_
  have el : lidx_main_v16 (ix3 b l n) d = ix3 b l d := (funext fun a => by match a with | ⟨0, _⟩ => rfl | ⟨1, _⟩ => rfl | ⟨2, _⟩ => rfl)
  have er : ridx_main_v16 (ix3 b l n) d = ix3 b d n := (funext fun a => by match a with | ⟨0, _⟩ => rfl | ⟨1, _⟩ => rfl | ⟨2, _⟩ => rfl)
  rw [el, er]

/-- A pixel's masked pull term. -/
theorem v36_at (X0 : A0) (X1 : A1) (b : Fin 16) (l : Fin 8) (n : Fin 80000) :
    val_main_v36 (F := Ideal) X0 X1 (ix3 b l n)
      = mskR (X1 (ix3 b l n)) * pullS (Ideal.ofBits .f32 0x00000000#32 + ∑ d : Fin 16, X0 (ix3 b d n) * X0 (ix3 b d n))
          (∑ d : Fin 16, val_main_v11 (F := Ideal) X0 X1 (ix3 b l d) * X0 (ix3 b d n))
          (Ideal.ofBits .f32 0x00000000#32
            + ∑ d : Fin 16, val_main_v11 (F := Ideal) X0 X1 (ix3 b l d) * val_main_v11 (F := Ideal) X0 X1 (ix3 b l d)) := by
  rw [v36_stage]
  have e1 : idx_main_v17 (idx_main_v20 (ix3 b l n)) = ix2 b n := (funext fun a => by match a with | ⟨0, _⟩ => rfl | ⟨1, _⟩ => rfl)
  have e2 : idx_main_v22 (idx_main_v23 (ix3 b l n)) = ix2 b l := (funext fun a => by match a with | ⟨0, _⟩ => rfl | ⟨1, _⟩ => rfl)
  rw [e1, e2, v13_at, v16_at, v15_at]

/-- A lane's sum of masked pull terms over all the pixels. -/
theorem v37_at (X0 : A0) (X1 : A1) (b : Fin 16) (l : Fin 8) :
    val_main_v37 (F := Ideal) X0 X1 (ix2 b l)
      = Ideal.ofBits .f32 0x00000000#32 + ∑ n : Fin 80000, val_main_v36 (F := Ideal) X0 X1 (ix3 b l n) := by
  rw [val_main_v37_apply]
  refine congrArg₂ (· + ·) rfl (Finset.sum_congr rfl fun (n : Fin 80000) _ => ?_)
  exact congrArg (val_main_v36 (F := Ideal) X0 X1) (funext fun a => by match a with | ⟨0, _⟩ => rfl | ⟨1, _⟩ => rfl | ⟨2, _⟩ => rfl)

end Cert.ReferenceIdeal.RefAt

end
-- ==== Proof.LibBlockSum.lean ====
/-
  Blocked sums. A sum over `a * b` consecutive indices taken block by block — `a` consecutive blocks of `b`
  indices each — is the whole sum. Stated over the naturals below a bound, over `Fin`-indexed families, and at the
  two literal sizes 16 × 256 = 4096 and 11 × 384 = 4224.
-/
import Mathlib.Algebra.BigOperators.Fin
import Mathlib.Algebra.BigOperators.Intervals

namespace Cert.LibBlockSum

open Finset

variable {M : Type*} [AddCommMonoid M]

/-- The sum of `f` over the first `a * b` naturals, taken as `a` consecutive blocks of `b`, is the whole sum. -/
theorem sum_range_blocks (a b : ℕ) (f : ℕ → M) :
    ∑ j ∈ range a, ∑ l ∈ range b, f (b * j + l) = ∑ i ∈ range (a * b), f i := by
  induction a with
  | zero => simp
  | succ a ih =>
    rw [Finset.sum_range_succ, ih, Nat.succ_mul, Finset.sum_range_add, Nat.mul_comm b a]

/-- The same over `Fin`-indexed blocks: block `j` of `a`, position `l` of `b` inside it, is index `b * j + l`. -/
theorem sum_fin_blocks (a b : ℕ) (f : ℕ → M) :
    ∑ j : Fin a, ∑ l : Fin b, f (b * j.val + l.val) = ∑ i : Fin (a * b), f i.val := by
  rw [Fin.sum_univ_eq_sum_range (fun i => f i) (a * b), ← sum_range_blocks a b f,
    ← Fin.sum_univ_eq_sum_range (fun j => ∑ l ∈ range b, f (b * j + l)) a]
  exact Finset.sum_congr rfl fun j _ => Fin.sum_univ_eq_sum_range (fun l => f (b * j.val + l)) b

/-- Position `l` of block `j` lies below `a * b`. -/
theorem block_index_lt {a b j l : ℕ} (hj : j < a) (hl : l < b) : b * j + l < a * b :=
  calc b * j + l < b * j + b := Nat.add_lt_add_left hl _
    _ = b * (j + 1) := (Nat.mul_succ b j).symm
    _ ≤ b * a := Nat.mul_le_mul_left b hj
    _ = a * b := Nat.mul_comm b a

/-- A family over `Fin n` with `n = a * b`, summed block by block, is summed whole. -/
theorem sum_fin_blocks_of_eq {n : ℕ} (a b : ℕ) (hn : a * b = n) (g : Fin n → M) :
    ∑ j : Fin a, ∑ l : Fin b, g ⟨b * j.val + l.val, hn ▸ block_index_lt j.isLt l.isLt⟩ = ∑ i : Fin n, g i := by
  subst hn
  have h := sum_fin_blocks a b (fun k => if hk : k < a * b then g ⟨k, hk⟩ else 0)
  refine Eq.trans (Finset.sum_congr rfl fun j _ => Finset.sum_congr rfl fun l _ => ?_)
    (h.trans (Finset.sum_congr rfl fun i _ => ?_))
  · rw [dif_pos (block_index_lt j.isLt l.isLt)]
  · rw [dif_pos i.isLt]

/-- 16 blocks of 256 make 4096. -/
theorem sum_blocks_16_256 (g : Fin 4096 → M) :
    ∑ j : Fin 16, ∑ l : Fin 256, g ⟨256 * j.val + l.val, by omega⟩ = ∑ i : Fin 4096, g i :=
  sum_fin_blocks_of_eq 16 256 rfl g

/-- 11 blocks of 384 make 4224. -/
theorem sum_blocks_11_384 (g : Fin 4224 → M) :
    ∑ j : Fin 11, ∑ l : Fin 384, g ⟨384 * j.val + l.val, by omega⟩ = ∑ i : Fin 4224, g i :=
  sum_fin_blocks_of_eq 11 384 rfl g

end Cert.LibBlockSum
-- ==== Proof.Bridge.lean ====
/-
  The three arrays the grid region writes are the reference program's centroids, counts and per-lane sums of masked
  pull terms, at the ideal instance. The mask of a label word is the same extended real whether the word's sign
  test is widened and read signed or read unsigned; a matrix product into a zero accumulator and a host dot
  product are the same sum; a sum started from the zero word is the sum; and the sum of a lane's terms over the
  80000 pixels taken as five consecutive chunks of 16000, each added in turn to the zero column, is the whole sum,
  since addition on the extended reals is commutative and associative.
-/
import proofs.«130922_j41437844472370_2_alg».proof.Proof.KernelIdealSpec
import proofs.«130922_j41437844472370_2_alg».proof.Proof.KernelIdealPay
import proofs.«130922_j41437844472370_2_alg».proof.Proof.RefAt
import proofs.«130922_j41437844472370_2_alg».proof.Proof.LibBlockSum

set_option maxRecDepth 16384

noncomputable section

namespace Cert.Proof.Bridge

open Idealize.ShloMosaic Idealize.ShloMosaic.ValueIdx
open Cert.KernelIdeal Cert.KernelIdeal.Gen Cert.KernelIdeal.Spec Cert.KernelIdeal.Pay
open Cert.ReferenceIdeal.ReadP Cert.ReferenceIdeal.RefAt

variable {α : Type}

/-- An array `[a, b, 1]` cast to `[a, b]` reads, at `(i, j)`, the array at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- The two spellings of a label word's mask are one extended real: 0 or 1. -/
theorem msk_eq (w : BitVec 32) : mskK w = mskR w := by
  unfold mskK mskR
  rcases BitVec.eq_zero_or_eq_one (IntOp.cmpi .sgt w 0#32) with h | h
  · rw [h]
    show (((BitVec.setWidth 32 (0#1 : BitVec 1)).toInt : ℝ) : EReal) = ((((0#1 : BitVec 1)).toNat : ℝ) : EReal)
    have a : (BitVec.setWidth 32 (0#1 : BitVec 1)).toInt = 0 := by decide
    have b : ((0#1 : BitVec 1)).toNat = 0 := by decide
    rw [a, b]; norm_num
  · rw [h]
    show (((BitVec.setWidth 32 (1#1 : BitVec 1)).toInt : ℝ) : EReal) = ((((1#1 : BitVec 1)).toNat : ℝ) : EReal)
    have a : (BitVec.setWidth 32 (1#1 : BitVec 1)).toInt = 1 := by decide
    have b : ((1#1 : BitVec 1)).toNat = 1 := by decide
    rw [a, b]; norm_num

abbrev B0 := S16x16x80000.Idx → Elt Ideal .f32
abbrev B1 := S16x8x80000.Idx → Elt Ideal .i32

/-- A lane's count, on both sides. -/
theorem count_eq (X1 : B1) (b : Fin 16) (l : Fin 8) :
    k0_pay3 (F := Ideal) (blk1 X1 b) (ix2 l (0 : Fin 1)) = val_main_v3 (F := Ideal) X1 (ix2 b l) := by
  rw [pay3_apply, v3_at, Ideal.ofBits_zero_f32, zero_add]
  refine Finset.sum_congr rfl fun n _ => ?_
  exact msk_eq _

/-- A centroid's coordinate, on both sides. -/
theorem mean_eq (X0 : B0) (X1 : B1) (b : Fin 16) (l : Fin 8) (d : Fin 16) :
    k0_pay4 (F := Ideal) (blk0 X0 b) (blk1 X1 b) (ix2 l d) = val_main_v11 (F := Ideal) X0 X1 (ix3 b l d) := by
  rw [pay4_apply, v11_at, ← count_eq, pay3_apply]
  refine congrArg₂ Ideal.div (Finset.sum_congr rfl fun n _ => ?_) rfl
  exact congrArg (· * _) (msk_eq _)

/-- The centroids' array is the reference's. -/
theorem centroids_eq (X0 : B0) (X1 : B1) : G2 (F := Ideal) X0 X1 = val_main_v11 (F := Ideal) X0 X1 := by
  funext i
  obtain ⟨b, l, d, rfl⟩ : ∃ (b : Fin 16) (l : Fin 8) (d : Fin 16), i = ix3 b l d := ⟨i 0, i 1, i 2, eq_ix3 i⟩
  refine Eq.trans ?_ (mean_eq X0 X1 b l d)
  show k0_pay5 (F := Ideal) (blk0 X0 b) (blk1 X1 b) (ix3 (0 : Fin 1) l d) = _
  unfold k0_pay5
  exact shapeCast_ab_1ab_apply _ _ 0 l d

/-- The counts' array, its unit axis dropped, is the reference's counts. -/
theorem counts_eq (X1 : B1) (h : S16x8x1.ShapeCasts S16x8) :
    (fun i => shapeCast S16x8 (G3 (F := Ideal) X1) h i) = val_main_v3 (F := Ideal) X1 := by
  funext i
  obtain ⟨b, l, rfl⟩ : ∃ (b : Fin 16) (l : Fin 8), i = ix2 b l := ⟨i 0, i 1, eq_ix2 i⟩
  refine Eq.trans ?_ (count_eq X1 b l)
  refine (shapeCast_ab1_ab_apply _ h b l).trans ?_
  show k0_pay6 (F := Ideal) (blk1 X1 b) (ix3 (0 : Fin 1) l (0 : Fin 1)) = _
  unfold k0_pay6
  exact shapeCast_ab_1ab_apply _ _ 0 l 0

/-- Pixel `16000 k + j`. -/
abbrev pix (k : Fin 5) (j : Fin 16000) : Fin 80000 :=
  ⟨16000 * k.val + j.val, by have h1 : j.val < 16000 := j.isLt; have h2 : k.val < 5 := k.isLt; omega⟩

theorem blk0_at (X0 : B0) (b : Fin 16) (d : Fin 16) (n : Fin 80000) : blk0 X0 b (ix3 (0 : Fin 1) d n) = X0 (ix3 b d n) := rfl
theorem blk1_at (X1 : B1) (b : Fin 16) (l : Fin 8) (n : Fin 80000) : blk1 X1 b (ix3 (0 : Fin 1) l n) = X1 (ix3 b l n) := rfl
theorem chunk0_at (x0 : Vec Ideal S1x16x80000 .f32) (k : Fin 5) (d : Fin 16) (j : Fin 16000) :
    chunk0 x0 k (ix3 (0 : Fin 1) d j) = x0 (ix3 (0 : Fin 1) d (pix k j)) := rfl
theorem chunk1_at (x1 : Vec Ideal S1x8x80000 .i32) (k : Fin 5) (l : Fin 8) (j : Fin 16000) :
    chunk1 x1 k (ix3 (0 : Fin 1) l j) = x1 (ix3 (0 : Fin 1) l (pix k j)) := rfl

set_option maxRecDepth 200000 in
/-- One chunk adds, to lane `l`'s carried value, the reference's masked pull terms of the chunk's pixels. -/
theorem chunk_eq (X0 : B0) (X1 : B1) (b : Fin 16) (l : Fin 8) (k : Fin 5) (acc : FVec Ideal S8x1 .f32) :
    k0_pay8 (F := Ideal) (blk0 X0 b) (blk1 X1 b) acc (chunk0 (blk0 X0 b) k) (chunk1 (blk1 X1 b) k) (ix2 l (0 : Fin 1))
      = acc (ix2 l (0 : Fin 1)) + ∑ j : Fin 16000, val_main_v36 (F := Ideal) X0 X1 (ix3 b l (pix k j)) := by
  rw [pay8_apply]
  refine congrArg (acc (ix2 l (0 : Fin 1)) + ·) (Finset.sum_congr rfl fun j _ => ?_)
  simp only [chunk0_at, chunk1_at, blk0_at, blk1_at]
  rw [v36_at, Ideal.ofBits_zero_f32, zero_add, zero_add]
  refine congrArg₂ (· * ·) (msk_eq _) ?_
  refine congr (congr (congrArg pullS ?_) ?_) ?_
  · rfl
  · exact Finset.sum_congr rfl fun d _ => congrArg (· * _) (mean_eq X0 X1 b l d)
  · exact Finset.sum_congr rfl fun d _ => congrArg₂ (· * ·) (mean_eq X0 X1 b l d) (mean_eq X0 X1 b l d)

theorem lane_succ (x0 : Vec Ideal S1x16x80000 .f32) (x1 : Vec Ideal S1x8x80000 .i32) (k : ℕ) (h : k < 5) :
    lane x0 x1 (k + 1) = k0_pay8 (F := Ideal) x0 x1 (lane x0 x1 k) (chunk0 x0 ⟨k, h⟩) (chunk1 x1 ⟨k, h⟩) := by
  rw [lane]; exact dif_pos h

/-- After the five chunks lane `l`'s carried value is the reference's sum over all the pixels. -/
theorem lane_eq (X0 : B0) (X1 : B1) (b : Fin 16) (l : Fin 8) :
    lane (F := Ideal) (blk0 X0 b) (blk1 X1 b) 5 (ix2 l (0 : Fin 1)) = val_main_v37 (F := Ideal) X0 X1 (ix2 b l) := by
  rw [v37_at, Ideal.ofBits_zero_f32, ← Cert.LibBlockSum.sum_fin_blocks_of_eq 5 16000 rfl, Fin.sum_univ_five]
  rw [lane_succ _ _ 4 (by omega), chunk_eq X0 X1 b l ⟨4, by omega⟩, lane_succ _ _ 3 (by omega), chunk_eq X0 X1 b l ⟨3, by omega⟩,
    lane_succ _ _ 2 (by omega), chunk_eq X0 X1 b l ⟨2, by omega⟩, lane_succ _ _ 1 (by omega), chunk_eq X0 X1 b l ⟨1, by omega⟩,
    lane_succ _ _ 0 (by omega), chunk_eq X0 X1 b l ⟨0, by omega⟩]
  rw [show lane (F := Ideal) (blk0 X0 b) (blk1 X1 b) 0 (ix2 l (0 : Fin 1)) = 0 from pay7_apply _]
  simp only [add_assoc]
  rfl

/-- The accumulated array, its unit axis dropped, is the reference's per-lane sums. -/
theorem sums_eq (X0 : B0) (X1 : B1) (h : S16x8x1.ShapeCasts S16x8) :
    (fun i => shapeCast S16x8 (G4 (F := Ideal) X0 X1) h i) = val_main_v37 (F := Ideal) X0 X1 := by
  funext i
  obtain ⟨b, l, rfl⟩ : ∃ (b : Fin 16) (l : Fin 8), i = ix2 b l := ⟨i 0, i 1, eq_ix2 i⟩
  refine Eq.trans ?_ (lane_eq X0 X1 b l)
  refine (shapeCast_ab1_ab_apply _ h b l).trans ?_
  show k0_pay1 (F := Ideal) (lane (blk0 X0 b) (blk1 X1 b) 5) (ix3 (0 : Fin 1) l (0 : Fin 1)) = _
  unfold k0_pay1
  exact shapeCast_ab_1ab_apply _ _ 0 l 0

end Cert.Proof.Bridge

end
-- ==== Proof.KernelIdealRun.lean ====
/-
  The idealized kernel's run, read at the ideal instance: every weakly fair execution terminates with the three
  results at the reference program's three result terms of the two argument arrays, and the argument arrays
  unchanged. The region leaves the reference's centroids, counts and per-lane sums in its three arrays; the host
  operations after it are the reference's last operations.
-/
import proofs.«130922_j41437844472370_2_alg».proof.Proof.KernelIdealFinal
import proofs.«130922_j41437844472370_2_alg».proof.Proof.KernelIdealTail
import proofs.«130922_j41437844472370_2_alg».proof.Proof.Bridge

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen Cert.KernelIdeal.Fr
open Cert.ReferenceIdeal.ReadP (val_main_v42 val_main_v93 val_main_v3 val_main_v11 val_main_v37)

variable (m : (ℓ : Loc nD τ sig) → Buf (Elt Ideal) ℓ) (ρ : Dev nD → PrngReg)

/-- The buffers when the host operations after the region start: the region's arrays as it left them, every other
    buffer as the region found it. -/
abbrev W (c : Dev nD) : Valuation τ sig (Elt Ideal) :=
  Pipeline.withArrays (cfgs 0).spec c (V0 m c) fun w => (dats m 0 c).arrAt w (cfgs 0).N

theorem W2 (c : Dev nD) : W m c (Proc.devRef .tc main_v0_0)
    = Cert.KernelIdeal.Spec.G2 (m ((c.tc : Thread nD τ).loc main_arg0)) (m ((c.tc : Thread nD τ).loc main_arg1)) :=
  (Pipeline.withArrays_arr spec0 launch0.win.arr_inj c _ _ 2).trans (final2 m c)
theorem W3 (c : Dev nD) : W m c (Proc.devRef .tc main_v0_1)
    = Cert.KernelIdeal.Spec.G3 (m ((c.tc : Thread nD τ).loc main_arg1)) :=
  (Pipeline.withArrays_arr spec0 launch0.win.arr_inj c _ _ 3).trans (final3 m c)
theorem W4 (c : Dev nD) : W m c (Proc.devRef .tc main_v0_2)
    = Cert.KernelIdeal.Spec.G4 (m ((c.tc : Thread nD τ).loc main_arg0)) (m ((c.tc : Thread nD τ).loc main_arg1)) :=
  (Pipeline.withArrays_arr spec0 launch0.win.arr_inj c _ _ 4).trans (final4 m c)

set_option backward.isDefEq.respectTransparency.types false in
theorem run : θ_run defs (onTc (τ := τ) (main (F := Ideal))) ⟨m, fun _ => 0, ρ⟩ (fun r => ∀ c : Dev nD,
      r.2.mem ((c.tc : Thread nD τ).loc main_v11)
        = val_main_v42 (F := Ideal) (m ((c.tc : Thread nD τ).loc main_arg0)) (m ((c.tc : Thread nD τ).loc main_arg1))
      ∧ r.2.mem ((c.tc : Thread nD τ).loc main_v62)
        = val_main_v93 (F := Ideal) (m ((c.tc : Thread nD τ).loc main_arg0)) (m ((c.tc : Thread nD τ).loc main_arg1))
      ∧ r.2.mem ((c.tc : Thread nD τ).loc main_cst_20) = (constant (F := Ideal) S_ .f32 0x00000000#32 : (⟨S_, .f32⟩ : BufTy).Contents (Elt Ideal))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main (F := Ideal) m ρ)
  have hr := (h c).2
  have h3 : (fun i => shapeCast S16x8 (W m c (Proc.devRef .tc main_v0_1)) Facts₀.shapeCasts_S16x8x1_S16x8 i)
      = val_main_v3 (F := Ideal) (m ((c.tc : Thread nD τ).loc main_arg1)) := by
    rw [W3]; exact Cert.Proof.Bridge.counts_eq _ _
  have h4 : (fun i => shapeCast S16x8 (W m c (Proc.devRef .tc main_v0_2)) Facts₀.shapeCasts_S16x8x1_S16x8 i)
      = val_main_v37 (F := Ideal) (m ((c.tc : Thread nD τ).loc main_arg0)) (m ((c.tc : Thread nD τ).loc main_arg1)) := by
    rw [W4]; exact Cert.Proof.Bridge.sums_eq _ _ _
  have h2 : W m c (Proc.devRef .tc main_v0_0)
      = val_main_v11 (F := Ideal) (m ((c.tc : Thread nD τ).loc main_arg0)) (m ((c.tc : Thread nD τ).loc main_arg1)) :=
    (W2 m c).trans (Cert.Proof.Bridge.centroids_eq _ _)
  refine ⟨(hr main_v11 (Pipeline.mem_restRefs_of _ rfl (by decide))).trans ?_,
    (hr main_v62 (Pipeline.mem_restRefs_of _ rfl (by decide))).trans ?_,
    (hr main_cst_20 (Pipeline.mem_restRefs_of _ rfl (by decide))).trans ?_,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩
  · exact Cert.KernelIdeal.Tail.tail_var (W m c) _ _ h3 h4
  · exact Cert.KernelIdeal.Tail.tail_dist (W m c) _ _ h2 h3
  · exact Cert.KernelIdeal.Tail.tail_reg (W m c)

end Cert.KernelIdeal.Run

end
-- ==== Proof.lean ====
/-
  The certificate of the fused discriminative-loss kernel against its jnp reference.

  The kernel is one grid region over the sixteen batch elements followed by a short tail of host operations. At
  batch element b the region computes, from the embedding block [16, 80000] and the label block [8, 80000]: the
  per-lane masks (label > 0), the counts (the masks summed over the pixels), the centroids (the masked sums of the
  embedding over max(count, 1)), and, chunk by chunk of 16000 pixels, the per-lane sum of mask times pull term,
  where a pixel's pull term is the square of max(distance to the centroid − 1/2, 0) and the squared distance is
  taken as max(|e|² − 2 e·μ + |μ|², 0). The host tail turns counts, centroids and sums into the three losses.
  The reference computes the same three arrays with whole-array operations and ends with the same tail.

  At the ideal instance a change of float format is the identity, a matrix product into a zero accumulator and a
  host dot product are the same sum, a sum started from the zero word is the sum, and five chunk sums added in turn
  are the whole sum: addition on the extended reals is commutative and associative, and no other law is used, so the
  precondition (finite inputs) is never opened. Hence the three arrays agree index by index, and the tails agree
  because they are the same operations.

  The three frames: each kernel program terminates at every grid point (the body's run, its five-trip loop by its
  invariant), writes only its result arrays and its own buffers, and the host operations after the region write
  only their own result buffers; the reference is a straight line of host operations.
-/
import proofs.«130922_j41437844472370_2_alg».proof.Defs
import proofs.«130922_j41437844472370_2_alg».proof.Proof.Gen.Kernel
import proofs.«130922_j41437844472370_2_alg».proof.Proof.Gen.KernelIdeal
import proofs.«130922_j41437844472370_2_alg».proof.Proof.Gen.ReferenceIdeal
import proofs.«130922_j41437844472370_2_alg».proof.Proof.Gen.Pre_finite_inputs
import proofs.«130922_j41437844472370_2_alg».proof.Proof.KernelFrame
import proofs.«130922_j41437844472370_2_alg».proof.Proof.KernelIdealFrame
import proofs.«130922_j41437844472370_2_alg».proof.Proof.RefFrame
import proofs.«130922_j41437844472370_2_alg».proof.Proof.KernelIdealRun
import Idealize.ShloMosaic.Adequacy
import Idealize.ShloMosaic.Init

noncomputable section

namespace Cert.Proof

open Idealize.ShloMosaic Idealize.ShloMosaic.TcCoe Idealize.SL.Sem

/-- The word-level kernel terminates without a fault and leaves both argument arrays unchanged. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- The ideal pass rewrote nothing. -/
theorem preserves : Cert.preserves_Kernel_KernelIdeal := trivial

/-- At the ideal instance both programs end with the reference's three result terms of the argument arrays. -/
theorem algebraic : Cert.algebraic_KernelIdeal_ReferenceIdeal := by
  intro m ρ m' ρ' _ hagree
  refine ⟨fun c => Cert.ReferenceIdeal.ReadP.val_main_v42 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    fun c => Cert.ReferenceIdeal.ReadP.val_main_v93 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    fun _ => (constant (F := Ideal) Cert.KernelIdeal.S_ .f32 0x00000000#32 : (⟨Cert.KernelIdeal.S_, .f32⟩ : BufTy).Contents (Elt Ideal)),
    Cert.KernelIdeal.Run.run m ρ, ?_⟩
  refine (θ_run Cert.ReferenceIdeal.defs _ _).mono (fun _ h c => ?_) (Cert.ReferenceIdeal.ValueP.run (F := Ideal) m' ρ')
  refine ⟨(h c).1.trans ?_, (h c).2.1.trans ?_, (h c).2.2.1.trans ?_, (h c).2.2.2.1, (h c).2.2.2.2⟩
  · rw [Cert.ReferenceIdeal.ReadP.val_main_v42_eq, (hagree c).1, (hagree c).2]
  · rw [Cert.ReferenceIdeal.ReadP.val_main_v93_eq, (hagree c).1, (hagree c).2]
  · rfl

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, preserves, algebraic⟩

end Cert.Proof

end
